-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S128x4096 : Shape := ⟨2, ![128, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  iota_S128x4096_d1_w32 : S128x4096.Iotas .tc 32 [1]
  rotates_S128x4096_d1 : S128x4096.Rotates 1 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩

abbrev nBuf : Space → Nat
  | .hbm => 133
  | .vmem => 0
  | .smem => 0
  | _ => 0

abbrev hbmTy0_0 (i : Nat) : BufTy := match i % 128 with
  | 0 => ⟨S8192x4096, .f32⟩
  | 1 => ⟨S8192x2048x2x1, .f32⟩
  | 2 => ⟨S8192x2048x1x1, .f32⟩
  | 3 => ⟨S8192x2048x1, .f32⟩
  | 4 => ⟨S8192x2048x1x1, .f32⟩
  | 5 => ⟨S8192x2048x1, .f32⟩
  | 6 => ⟨S8192x2048x1, .f32⟩
  | 7 => ⟨S8192x2048x1, .f32⟩
  | 8 => ⟨S8192x2048x1x1, .f32⟩
  | 9 => ⟨S8192x2048x1x1, .f32⟩
  | 10 => ⟨S8192x2048x2x1, .f32⟩
  | 11 => ⟨S8192x4096, .f32⟩
  | 12 => ⟨S8192x1024x2x2, .f32⟩
  | 13 => ⟨S8192x1024x1x2, .f32⟩
  | 14 => ⟨S8192x1024x2, .f32⟩
  | 15 => ⟨S8192x1024x1x2, .f32⟩
  | 16 => ⟨S8192x1024x2, .f32⟩
  | 17 => ⟨S8192x1024x2, .f32⟩
  | 18 => ⟨S8192x1024x2, .f32⟩
  | 19 => ⟨S8192x1024x1x2, .f32⟩
  | 20 => ⟨S8192x1024x1x2, .f32⟩
  | 21 => ⟨S8192x1024x2x2, .f32⟩
  | 22 => ⟨S8192x4096, .f32⟩
  | 23 => ⟨S8192x512x2x4, .f32⟩
  | 24 => ⟨S8192x512x1x4, .f32⟩
  | 25 => ⟨S8192x512x4, .f32⟩
  | 26 => ⟨S8192x512x1x4, .f32⟩
  | 27 => ⟨S8192x512x4, .f32⟩
  | 28 => ⟨S8192x512x4, .f32⟩
  | 29 => ⟨S8192x512x4, .f32⟩
  | 30 => ⟨S8192x512x1x4, .f32⟩
  | 31 => ⟨S8192x512x1x4, .f32⟩
  | 32 => ⟨S8192x512x2x4, .f32⟩
  | 33 => ⟨S8192x4096, .f32⟩
  | 34 => ⟨S8192x256x2x8, .f32⟩
  | 35 => ⟨S8192x256x1x8, .f32⟩
  | 36 => ⟨S8192x256x8, .f32⟩
  | 37 => ⟨S8192x256x1x8, .f32⟩
  | 38 => ⟨S8192x256x8, .f32⟩
  | 39 => ⟨S8192x256x8, .f32⟩
  | 40 => ⟨S8192x256x8, .f32⟩
  | 41 => ⟨S8192x256x1x8, .f32⟩
  | 42 => ⟨S8192x256x1x8, .f32⟩
  | 43 => ⟨S8192x256x2x8, .f32⟩
  | 44 => ⟨S8192x4096, .f32⟩
  | 45 => ⟨S8192x128x2x16, .f32⟩
  | 46 => ⟨S8192x128x1x16, .f32⟩
  | 47 => ⟨S8192x128x16, .f32⟩
  | 48 => ⟨S8192x128x1x16, .f32⟩
  | 49 => ⟨S8192x128x16, .f32⟩
  | 50 => ⟨S8192x128x16, .f32⟩
  | 51 => ⟨S8192x128x16, .f32⟩
  | 52 => ⟨S8192x128x1x16, .f32⟩
  | 53 => ⟨S8192x128x1x16, .f32⟩
  | 54 => ⟨S8192x128x2x16, .f32⟩
  | 55 => ⟨S8192x4096, .f32⟩
  | 56 => ⟨S8192x64x2x32, .f32⟩
  | 57 => ⟨S8192x64x1x32, .f32⟩
  | 58 => ⟨S8192x64x32, .f32⟩
  | 59 => ⟨S8192x64x1x32, .f32⟩
  | 60 => ⟨S8192x64x32, .f32⟩
  | 61 => ⟨S8192x64x32, .f32⟩
  | 62 => ⟨S8192x64x32, .f32⟩
  | 63 => ⟨S8192x64x1x32, .f32⟩
  | 64 => ⟨S8192x64x1x32, .f32⟩
  | 65 => ⟨S8192x64x2x32, .f32⟩
  | 66 => ⟨S8192x4096, .f32⟩
  | 67 => ⟨S8192x32x2x64, .f32⟩
  | 68 => ⟨S8192x32x1x64, .f32⟩
  | 69 => ⟨S8192x32x64, .f32⟩
  | 70 => ⟨S8192x32x1x64, .f32⟩
  | 71 => ⟨S8192x32x64, .f32⟩
  | 72 => ⟨S8192x32x64, .f32⟩
  | 73 => ⟨S8192x32x64, .f32⟩
  | 74 => ⟨S8192x32x1x64, .f32⟩
  | 75 => ⟨S8192x32x1x64, .f32⟩
  | 76 => ⟨S8192x32x2x64, .f32⟩
  | 77 => ⟨S8192x4096, .f32⟩
  | 78 => ⟨S8192x16x2x128, .f32⟩
  | 79 => ⟨S8192x16x1x128, .f32⟩
  | 80 => ⟨S8192x16x128, .f32⟩
  | 81 => ⟨S8192x16x1x128, .f32⟩
  | 82 => ⟨S8192x16x128, .f32⟩
  | 83 => ⟨S8192x16x128, .f32⟩
  | 84 => ⟨S8192x16x128, .f32⟩
  | 85 => ⟨S8192x16x1x128, .f32⟩
  | 86 => ⟨S8192x16x1x128, .f32⟩
  | 87 => ⟨S8192x16x2x128, .f32⟩
  | 88 => ⟨S8192x4096, .f32⟩
  | 89 => ⟨S8192x8x2x256, .f32⟩
  | 90 => ⟨S8192x8x1x256, .f32⟩
  | 91 => ⟨S8192x8x256, .f32⟩
  | 92 => ⟨S8192x8x1x256, .f32⟩
  | 93 => ⟨S8192x8x256, .f32⟩
  | 94 => ⟨S8192x8x256, .f32⟩
  | 95 => ⟨S8192x8x256, .f32⟩
  | 96 => ⟨S8192x8x1x256, .f32⟩
  | 97 => ⟨S8192x8x1x256, .f32⟩
  | 98 => ⟨S8192x8x2x256, .f32⟩
  | 99 => ⟨S8192x4096, .f32⟩
  | 100 => ⟨S8192x4x2x512, .f32⟩
  | 101 => ⟨S8192x4x1x512, .f32⟩
  | 102 => ⟨S8192x4x512, .f32⟩
  | 103 => ⟨S8192x4x1x512, .f32⟩
  | 104 => ⟨S8192x4x512, .f32⟩
  | 105 => ⟨S8192x4x512, .f32⟩
  | 106 => ⟨S8192x4x512, .f32⟩
  | 107 => ⟨S8192x4x1x512, .f32⟩
  | 108 => ⟨S8192x4x1x512, .f32⟩
  | 109 => ⟨S8192x4x2x512, .f32⟩
  | 110 => ⟨S8192x4096, .f32⟩
  | 111 => ⟨S8192x2x2x1024, .f32⟩
  | 112 => ⟨S8192x2x1x1024, .f32⟩
  | 113 => ⟨S8192x2x1024, .f32⟩
  | 114 => ⟨S8192x2x1x1024, .f32⟩
  | 115 => ⟨S8192x2x1024, .f32⟩
  | 116 => ⟨S8192x2x1024, .f32⟩
  | 117 => ⟨S8192x2x1024, .f32⟩
  | 118 => ⟨S8192x2x1x1024, .f32⟩
  | 119 => ⟨S8192x2x1x1024, .f32⟩
  | 120 => ⟨S8192x2x2x1024, .f32⟩
  | 121 => ⟨S8192x4096, .f32⟩
  | 122 => ⟨S8192x1x2x2048, .f32⟩
  | 123 => ⟨S8192x1x1x2048, .f32⟩
  | 124 => ⟨S8192x1x2048, .f32⟩
  | 125 => ⟨S8192x1x1x2048, .f32⟩
  | 126 => ⟨S8192x1x2048, .f32⟩
  | 127 => ⟨S8192x1x2048, .f32⟩
  | _ => ⟨S8192x4096, .f32⟩

abbrev hbmTy0_1 (i : Nat) : BufTy := match i % 128 with
  | 0 => ⟨S8192x1x2048, .f32⟩
  | 1 => ⟨S8192x1x1x2048, .f32⟩
  | 2 => ⟨S8192x1x1x2048, .f32⟩
  | 3 => ⟨S8192x1x2x2048, .f32⟩
  | 4 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩
abbrev main_v110 : Ref sig .tc := ⟨.hbm, 111, rfl⟩
abbrev main_v111 : Ref sig .tc := ⟨.hbm, 112, rfl⟩
abbrev main_v112 : Ref sig .tc := ⟨.hbm, 113, rfl⟩
abbrev main_v113 : Ref sig .tc := ⟨.hbm, 114, rfl⟩
abbrev main_v114 : Ref sig .tc := ⟨.hbm, 115, rfl⟩
abbrev main_v115 : Ref sig .tc := ⟨.hbm, 116, rfl⟩
abbrev main_v116 : Ref sig .tc := ⟨.hbm, 117, rfl⟩
abbrev main_v117 : Ref sig .tc := ⟨.hbm, 118, rfl⟩
abbrev main_v118 : Ref sig .tc := ⟨.hbm, 119, rfl⟩
abbrev main_v119 : Ref sig .tc := ⟨.hbm, 120, rfl⟩
abbrev main_v120 : Ref sig .tc := ⟨.hbm, 121, rfl⟩
abbrev main_v121 : Ref sig .tc := ⟨.hbm, 122, rfl⟩
abbrev main_v122 : Ref sig .tc := ⟨.hbm, 123, rfl⟩
abbrev main_v123 : Ref sig .tc := ⟨.hbm, 124, rfl⟩
abbrev main_v124 : Ref sig .tc := ⟨.hbm, 125, rfl⟩
abbrev main_v125 : Ref sig .tc := ⟨.hbm, 126, rfl⟩
abbrev main_v126 : Ref sig .tc := ⟨.hbm, 127, rfl⟩
abbrev main_v127 : Ref sig .tc := ⟨.hbm, 128, rfl⟩
abbrev main_v128 : Ref sig .tc := ⟨.hbm, 129, rfl⟩
abbrev main_v129 : Ref sig .tc := ⟨.hbm, 130, rfl⟩
abbrev main_v130 : Ref sig .tc := ⟨.hbm, 131, rfl⟩
abbrev main_v131 : Ref sig .tc := ⟨.hbm, 132, rfl⟩

abbrev nD : Nat := 1
abbrev τ : Topo := Topo.v7x

variable {F : FTy → Type} [FloatOps F]

class Facts₀ : Prop where
  shapeCasts_S8192x4096_S8192x2048x2x1 : S8192x4096.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  bcast_S8192x2048x1_S8192x2048x1x1_0_1_3 : S8192x2048x1.BroadcastsInDim S8192x2048x1x1 (![0, 1, 3] : Fin 3 → Fin S8192x2048x1x1.rank)
  concatenates_S8192x2048x1x1_S8192x2048x1x1_S8192x2048x2x1_d2 : Shape.Concatenates [S8192x2048x1x1, S8192x2048x1x1] S8192x2048x2x1 2
  shapeCasts_S8192x2048x2x1_S8192x4096 : S8192x2048x2x1.ShapeCasts S8192x4096
  shapeCasts_S8192x4096_S8192x1024x2x2 : S8192x4096.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  bcast_S8192x1024x2_S8192x1024x1x2_0_1_3 : S8192x1024x2.BroadcastsInDim S8192x1024x1x2 (![0, 1, 3] : Fin 3 → Fin S8192x1024x1x2.rank)
  concatenates_S8192x1024x1x2_S8192x1024x1x2_S8192x1024x2x2_d2 : Shape.Concatenates [S8192x1024x1x2, S8192x1024x1x2] S8192x1024x2x2 2
  shapeCasts_S8192x1024x2x2_S8192x4096 : S8192x1024x2x2.ShapeCasts S8192x4096
  shapeCasts_S8192x4096_S8192x512x2x4 : S8192x4096.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  bcast_S8192x512x4_S8192x512x1x4_0_1_3 : S8192x512x4.BroadcastsInDim S8192x512x1x4 (![0, 1, 3] : Fin 3 → Fin S8192x512x1x4.rank)
  concatenates_S8192x512x1x4_S8192x512x1x4_S8192x512x2x4_d2 : Shape.Concatenates [S8192x512x1x4, S8192x512x1x4] S8192x512x2x4 2
  shapeCasts_S8192x512x2x4_S8192x4096 : S8192x512x2x4.ShapeCasts S8192x4096
  shapeCasts_S8192x4096_S8192x256x2x8 : S8192x4096.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  bcast_S8192x256x8_S8192x256x1x8_0_1_3 : S8192x256x8.BroadcastsInDim S8192x256x1x8 (![0, 1, 3] : Fin 3 → Fin S8192x256x1x8.rank)
  concatenates_S8192x256x1x8_S8192x256x1x8_S8192x256x2x8_d2 : Shape.Concatenates [S8192x256x1x8, S8192x256x1x8] S8192x256x2x8 2
  shapeCasts_S8192x256x2x8_S8192x4096 : S8192x256x2x8.ShapeCasts S8192x4096
  shapeCasts_S8192x4096_S8192x128x2x16 : S8192x4096.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  bcast_S8192x128x16_S8192x128x1x16_0_1_3 : S8192x128x16.BroadcastsInDim S8192x128x1x16 (![0, 1, 3] : Fin 3 → Fin S8192x128x1x16.rank)
  concatenates_S8192x128x1x16_S8192x128x1x16_S8192x128x2x16_d2 : Shape.Concatenates [S8192x128x1x16, S8192x128x1x16] S8192x128x2x16 2
  shapeCasts_S8192x128x2x16_S8192x4096 : S8192x128x2x16.ShapeCasts S8192x4096
  shapeCasts_S8192x4096_S8192x64x2x32 : S8192x4096.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  bcast_S8192x64x32_S8192x64x1x32_0_1_3 : S8192x64x32.BroadcastsInDim S8192x64x1x32 (![0, 1, 3] : Fin 3 → Fin S8192x64x1x32.rank)
  concatenates_S8192x64x1x32_S8192x64x1x32_S8192x64x2x32_d2 : Shape.Concatenates [S8192x64x1x32, S8192x64x1x32] S8192x64x2x32 2
  shapeCasts_S8192x64x2x32_S8192x4096 : S8192x64x2x32.ShapeCasts S8192x4096
  shapeCasts_S8192x4096_S8192x32x2x64 : S8192x4096.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  bcast_S8192x32x64_S8192x32x1x64_0_1_3 : S8192x32x64.BroadcastsInDim S8192x32x1x64 (![0, 1, 3] : Fin 3 → Fin S8192x32x1x64.rank)
  concatenates_S8192x32x1x64_S8192x32x1x64_S8192x32x2x64_d2 : Shape.Concatenates [S8192x32x1x64, S8192x32x1x64] S8192x32x2x64 2
  shapeCasts_S8192x32x2x64_S8192x4096 : S8192x32x2x64.ShapeCasts S8192x4096
  shapeCasts_S8192x4096_S8192x16x2x128 : S8192x4096.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  bcast_S8192x16x128_S8192x16x1x128_0_1_3 : S8192x16x128.BroadcastsInDim S8192x16x1x128 (![0, 1, 3] : Fin 3 → Fin S8192x16x1x128.rank)
  concatenates_S8192x16x1x128_S8192x16x1x128_S8192x16x2x128_d2 : Shape.Concatenates [S8192x16x1x128, S8192x16x1x128] S8192x16x2x128 2
  shapeCasts_S8192x16x2x128_S8192x4096 : S8192x16x2x128.ShapeCasts S8192x4096
  shapeCasts_S8192x4096_S8192x8x2x256 : S8192x4096.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  bcast_S8192x8x256_S8192x8x1x256_0_1_3 : S8192x8x256.BroadcastsInDim S8192x8x1x256 (![0, 1, 3] : Fin 3 → Fin S8192x8x1x256.rank)
  concatenates_S8192x8x1x256_S8192x8x1x256_S8192x8x2x256_d2 : Shape.Concatenates [S8192x8x1x256, S8192x8x1x256] S8192x8x2x256 2
  shapeCasts_S8192x8x2x256_S8192x4096 : S8192x8x2x256.ShapeCasts S8192x4096
  shapeCasts_S8192x4096_S8192x4x2x512 : S8192x4096.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  bcast_S8192x4x512_S8192x4x1x512_0_1_3 : S8192x4x512.BroadcastsInDim S8192x4x1x512 (![0, 1, 3] : Fin 3 → Fin S8192x4x1x512.rank)
  concatenates_S8192x4x1x512_S8192x4x1x512_S8192x4x2x512_d2 : Shape.Concatenates [S8192x4x1x512, S8192x4x1x512] S8192x4x2x512 2
  shapeCasts_S8192x4x2x512_S8192x4096 : S8192x4x2x512.ShapeCasts S8192x4096
  shapeCasts_S8192x4096_S8192x2x2x1024 : S8192x4096.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  bcast_S8192x2x1024_S8192x2x1x1024_0_1_3 : S8192x2x1024.BroadcastsInDim S8192x2x1x1024 (![0, 1, 3] : Fin 3 → Fin S8192x2x1x1024.rank)
  concatenates_S8192x2x1x1024_S8192x2x1x1024_S8192x2x2x1024_d2 : Shape.Concatenates [S8192x2x1x1024, S8192x2x1x1024] S8192x2x2x1024 2
  shapeCasts_S8192x2x2x1024_S8192x4096 : S8192x2x2x1024.ShapeCasts S8192x4096
  shapeCasts_S8192x4096_S8192x1x2x2048 : S8192x4096.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  bcast_S8192x1x2048_S8192x1x1x2048_0_1_3 : S8192x1x2048.BroadcastsInDim S8192x1x1x2048 (![0, 1, 3] : Fin 3 → Fin S8192x1x1x2048.rank)
  concatenates_S8192x1x1x2048_S8192x1x1x2048_S8192x1x2x2048_d2 : Shape.Concatenates [S8192x1x1x2048, S8192x1x1x2048] S8192x1x2x2048 2
  shapeCasts_S8192x1x2x2048_S8192x4096 : S8192x1x2x2048.ShapeCasts S8192x4096

variable [Facts₀]

class Facts : Prop extends Facts₀ where

variable [Facts]
-- ==== Proof.Butterfly.lean ====
/-
  The radix-2 butterfly network on rows of 4096 extended reals (the fast Walsh–Hadamard transform).

  One STAGE of stride `st` pairs column `q` with the column whose bit `st` is flipped: where that bit of `q` is
  clear the result is `x q + x (q + st)`, where it is set the result is `x (q - st) - x q`. The partner columns are
  written around the row's end (`q + st` and `q + (4096 - st)` modulo 4096): in the case each is used the sum does
  not pass the end, so the wrap is never seen, and a rotation of the row gives exactly these columns. The whole
  transform is the twelve stages of strides 1, 2, 4, …, 2048 in that order. Nothing here needs the entries to be
  finite: a stage only adds and subtracts the two entries of a pair, in a fixed order.
-/
import Idealize.ShloMosaic.PureOps.Ideal
import Idealize.ShloMosaic.Lib.ValueIdx

noncomputable section

namespace Cert.Butterfly

open Idealize.ShloMosaic Idealize.ShloMosaic.ValueIdx

/-- An array of `R` rows of 4096 entries. -/
abbrev Arr (R : Nat) : Shape := ⟨2, ![R, 4096]⟩

/-- Column `q` moved `d` places along the row, around its end. -/
def wrap (q d : Nat) : Fin 4096 := ⟨(q + d) % 4096, Nat.mod_lt _ (by norm_num)⟩

theorem wrap_val (q d : Nat) : (wrap q d).val = (q + d) % 4096 := rfl

/-- One butterfly stage of stride `st`, entry by entry. -/
def stageAt {R : Nat} (st : Nat) (x : (Arr R).Idx → EReal) (p : Fin R) (q : Fin 4096) : EReal :=
  if q.val / st % 2 = 0 then x (ix2 p q) + x (ix2 p (wrap q.val st))
  else x (ix2 p (wrap q.val (4096 - st))) - x (ix2 p q)

/-- One butterfly stage of stride `st` on every row of an array. -/
def stage (R st : Nat) (x : (Arr R).Idx → EReal) : (Arr R).Idx → EReal := fun j => stageAt st x (j 0) (j 1)

theorem stage_ix2 {R : Nat} (st : Nat) (x : (Arr R).Idx → EReal) (p : Fin R) (q : Fin 4096) :
    stage R st x (ix2 p q) = stageAt st x p q := rfl

/-- The transform: the twelve stages, the smallest stride first. -/
def fwht (R : Nat) (x : (Arr R).Idx → EReal) : (Arr R).Idx → EReal :=
  stage R 2048 (stage R 1024 (stage R 512 (stage R 256 (stage R 128 (stage R 64
    (stage R 32 (stage R 16 (stage R 8 (stage R 4 (stage R 2 (stage R 1 x)))))))))))

/-- A stage acts row by row: reading `R'` of the rows (row `p` of the part being row `f p` of the whole) and then
    applying the stage is applying the stage to the whole and then reading those rows. -/
theorem stage_rows {R R' : Nat} (st : Nat) (f : Fin R' → Fin R) (x : (Arr R).Idx → EReal) :
    stage R' st (fun j => x (ix2 (f (j 0)) (j 1))) = fun j => stage R st x (ix2 (f (j 0)) (j 1)) := by
  funext j
  obtain ⟨p, q, rfl⟩ : ∃ (p : Fin R') (q : Fin 4096), j = ix2 p q := ⟨j 0, j 1, eq_ix2 j⟩
  rfl

/-- So does the whole transform. -/
theorem fwht_rows {R R' : Nat} (f : Fin R' → Fin R) (x : (Arr R).Idx → EReal) :
    fwht R' (fun j => x (ix2 (f (j 0)) (j 1))) = fun j => fwht R x (ix2 (f (j 0)) (j 1)) := by
  unfold fwht
  simp only [stage_rows]

end Cert.Butterfly

end
-- ==== Proof.KernelStage.lean ====
/-
  One stage of the kernel, read entry by entry.

  The kernel keeps a tile of whole rows and computes a stage of stride `st = 2^s` from two rotations of the tile
  along its rows: by `4096 - st`, whose entry at column `q` is the tile's at column `q + st` (around the end), and by
  `st`, whose entry at `q` is the tile's at `q - st` (around the end). Where bit `s` of the column number is clear
  — the lane number ANDed with `st` is zero — it keeps `r + (rotation by 4096 - st)`, elsewhere
  `(rotation by st) - r`. That is the butterfly stage of stride `st` as `Butterfly.stage` spells it.
-/
import Idealize.ShloMosaic.PureOps.Ideal
import Idealize.ShloMosaic.Lib.ValueIdx
import Idealize.ShloMosaic.Lib.Pipeline.Value
import Idealize.ShloMosaic.Lib.KernelVsHost
import Mathlib.Data.Nat.Bitwise
import proofs.«158363_j33071248180104_1_alg».proof.Proof.Butterfly

noncomputable section

namespace Cert.KernelStage

open Idealize.ShloMosaic Idealize.ShloMosaic.ValueIdx Cert.Butterfly

/-- A column number below 4096 ANDed with `2^s` (as 32-bit words) is zero exactly when its bit `s` is clear, that
    is when `q / 2^s` is even: the comparison's one-bit answer. -/
theorem mask_bit (q s : Nat) (hq : q < 4096) (hs : s < 12) :
    IntOp.cmpi .eq (IntOp.andi (BitVec.ofNat 32 q) (BitVec.ofNat 32 (2 ^ s))) (0#32)
      = if q / 2 ^ s % 2 = 0 then 1#1 else 0#1 := by
  have h2 : 2 ^ s < 2 ^ 32 := Nat.pow_lt_pow_right (by norm_num) (by omega)
  have hq2 : q < 2 ^ 32 := by omega
  have hand : (IntOp.andi (BitVec.ofNat 32 q) (BitVec.ofNat 32 (2 ^ s))).toNat = (q.testBit s).toNat * 2 ^ s := by
    unfold IntOp.andi
    rw [BitVec.toNat_and, BitVec.toNat_ofNat, BitVec.toNat_ofNat, Nat.mod_eq_of_lt hq2, Nat.mod_eq_of_lt h2,
      Nat.and_two_pow]
  by_cases hb : q / 2 ^ s % 2 = 0
  · rw [if_pos hb]
    have ht : q.testBit s = false := by
      rw [Nat.testBit_eq_decide_div_mod_eq]; simp [hb]
    have h0 : IntOp.andi (BitVec.ofNat 32 q) (BitVec.ofNat 32 (2 ^ s)) = 0#32 := by
      apply BitVec.eq_of_toNat_eq; rw [hand, ht]; simp
    rw [h0]; rfl
  · rw [if_neg hb]
    have ht : q.testBit s = true := by
      rw [Nat.testBit_eq_decide_div_mod_eq]; simp; omega
    have h1 : IntOp.andi (BitVec.ofNat 32 q) (BitVec.ofNat 32 (2 ^ s)) ≠ 0#32 := by
      intro h; have h' := congrArg BitVec.toNat h; rw [hand, ht] at h'; simp at h'
    unfold IntOp.cmpi
    show BitVec.ofBool (IntOp.andi (BitVec.ofNat 32 q) (BitVec.ofNat 32 (2 ^ s)) == 0#32) = 0#1
    rw [beq_eq_false_iff_ne.mpr h1]; rfl

/-- One stage as the kernel computes it on a tile `r` of `R` whole rows: the mask from the lane numbers, the two
    rotations (by `sp` and by `st`), the sum, the difference, the selection. -/
def kstage (R st sp : Nat) (hi : (Arr R).Iotas .tc 32 [1]) (hr : (Arr R).Rotates 1 none)
    (r : FVec Ideal (Arr R) .f32) : FVec Ideal (Arr R) .f32 :=
  select (cmpi .eq (andi (iota .tc (Arr R) 32 [1] hi) (broadcast (Arr R) (BitVec.ofNat 32 st))) (broadcast (Arr R) (0#32)))
    (addf r (dynamicRotate 1 (BitVec.ofNat 32 sp) none r hr))
    (subf (dynamicRotate 1 (BitVec.ofNat 32 st) none r hr) r)

/-- A rotation of the tile along its rows by `d < 4096`, read at row `p` and column `q`: the tile at column
    `q + (4096 - d)` around the row's end. -/
theorem rotate_apply (R d : Nat) (hd : d < 4096) (hr : (Arr R).Rotates 1 none) (r : FVec Ideal (Arr R) .f32)
    (p : Fin R) (q : Fin 4096) :
    dynamicRotate 1 (BitVec.ofNat 32 d) none r hr (ix2 p q) = r (ix2 p (wrap q.val (4096 - d))) := by
  refine dynamicRotate_apply (1 : Fin 2) (BitVec.ofNat 32 d) r hr (ix2 p q) (ix2 p (wrap q.val (4096 - d))) fun b => ?_
  have hd32 : (BitVec.ofNat 32 d).toNat = d := by
    rw [BitVec.toNat_ofNat]; exact Nat.mod_eq_of_lt (by omega)
  match b with
  | ⟨0, _⟩ => rfl
  | ⟨1, _⟩ =>
    show (wrap q.val (4096 - d)).val = (q.val + 4096 - (BitVec.ofNat 32 d).toNat % 4096) % 4096
    rw [hd32, wrap_val, Nat.mod_eq_of_lt hd]
    have hq : q.val < 4096 := q.isLt
    congr 1
    omega

/-- The kernel's stage of stride `2^s` (rotations by `4096 - 2^s` and by `2^s`) is the butterfly stage. -/
theorem kstage_eq (R s : Nat) (hs : s < 12) (hi : (Arr R).Iotas .tc 32 [1]) (hr : (Arr R).Rotates 1 none)
    (r : FVec Ideal (Arr R) .f32) :
    kstage R (2 ^ s) (4096 - 2 ^ s) hi hr r = stage R (2 ^ s) r := by
  have hle : 2 ^ s ≤ 2 ^ 11 := Nat.pow_le_pow_right (by norm_num) (by omega)
  have hpos : 0 < 2 ^ s := Nat.two_pow_pos s
  funext j
  obtain ⟨p, q, rfl⟩ : ∃ (p : Fin R) (q : Fin 4096), j = ix2 p q := ⟨j 0, j 1, eq_ix2 j⟩
  have e1 := rotate_apply R (4096 - 2 ^ s) (by omega) hr r p q
  have e2 := rotate_apply R (2 ^ s) (by norm_num at hle; omega) hr r p q
  have e3 : 4096 - (4096 - 2 ^ s) = 2 ^ s := by norm_num at hle; omega
  rw [e3] at e1
  show Scalar.select (IntOp.cmpi .eq (IntOp.andi (iota .tc (Arr R) 32 [1] hi (ix2 p q)) (BitVec.ofNat 32 (2 ^ s))) (0#32))
      (r (ix2 p q) + dynamicRotate 1 (BitVec.ofNat 32 (4096 - 2 ^ s)) none r hr (ix2 p q))
      (dynamicRotate 1 (BitVec.ofNat 32 (2 ^ s)) none r hr (ix2 p q) - r (ix2 p q)) = stageAt (2 ^ s) r p q
  rw [iota_single_apply, e1, e2]
  show Scalar.select (IntOp.cmpi .eq (IntOp.andi (BitVec.ofNat 32 q.val) (BitVec.ofNat 32 (2 ^ s))) (0#32)) _ _ = _
  rw [mask_bit q.val s q.isLt hs]
  unfold stageAt
  by_cases hb : q.val / 2 ^ s % 2 = 0
  · rw [if_pos hb, if_pos hb, select_one]
  · rw [if_neg hb, if_neg hb, select_zero]

end Cert.KernelStage

end
-- ==== Proof.KernelValue.lean ====
/-
  What the kernel leaves in its result array: the butterfly transform of the argument, row by row.

  The grid has 64 points; point `t` stages rows `128·t … 128·t + 127` of the argument whole (all 4096 columns), runs
  the twelve stages on that tile, and writes the tile back over the same rows of the result. The twelve stages on the
  tile are the twelve butterfly stages (one lemma per stage, in Proof/KernelStage.lean); a stage acts row by row, so the
  tile's transform is the argument's transform read at the tile's rows; the 64 tiles cover the array.
-/
import proofs.«158363_j33071248180104_1_alg».proof.Proof.Gen.KernelIdeal.Value
import proofs.«158363_j33071248180104_1_alg».proof.Proof.KernelStage

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Butterfly Cert.KernelStage

/-! ## The body's arithmetic is the twelve stages -/

/-- The tile's lane numbers. -/
abbrev lanes : IVec S128x4096 32 := iota .tc S128x4096 32 [1] iota_S128x4096_d1_w32

/-- One stage on a tile, with the kernel's two rotation amounts. -/
abbrev ks (st sp : Nat) (r : FVec Ideal S128x4096 .f32) : FVec Ideal S128x4096 .f32 :=
  kstage 128 st sp iota_S128x4096_d1_w32 rotates_S128x4096_d1 r

/-- Strides 1, 2, 4, 8: the first named value of the body. -/
theorem stages_0_3 (v0 : Vec Ideal S128x4096 .f32) :
    k0_pay2 v0 = ks 8 4088 (ks 4 4092 (ks 2 4094 (ks 1 4095 v0))) := rfl

/-- Strides 16, 32, 64, 128. -/
theorem stages_4_7 (v37 : FVec Ideal S128x4096 .f32) :
    k0_pay4 lanes v37 k0_pay3 = ks 128 3968 (ks 64 4032 (ks 32 4064 (ks 16 4080 v37))) := rfl

/-- Strides 256, 512, 1024, 2048: the stored value. -/
theorem stages_8_11 (v37 : FVec Ideal S128x4096 .f32) :
    k0_pay1 lanes (k0_pay4 lanes v37 k0_pay3) (k0_pay5 lanes) (k0_pay6 lanes v37 k0_pay3) (k0_pay7 lanes v37 k0_pay3)
      = ks 2048 2048 (ks 1024 3072 (ks 512 3584 (ks 256 3840 (k0_pay4 lanes v37 k0_pay3)))) := rfl

/-- A stage with literal amounts is the butterfly stage. -/
theorem ks_eq (st sp s : Nat) (hs : s < 12) (hst : st = 2 ^ s) (hsp : sp = 4096 - 2 ^ s) (r : FVec Ideal S128x4096 .f32) :
    ks st sp r = stage 128 st r := by
  subst hst hsp
  exact kstage_eq 128 s hs _ _ r

theorem hz : (![0, 0] : Fin 2 → Nat) = fun _ => 0 := funext fun a => by fin_cases a <;> rfl

/-- WHAT THE BODY LEAVES in the output's staging buffer: the transform of the input tile. -/
theorem out_eq (x0 : Vec Ideal S128x4096 .f32) : out0_1 x0 = fwht 128 x0 := by
  unfold out0_1
  rw [View.canon_unit_zero hz]
  simp only [View.ld_unit_zero (S := S128x4096) hz]
  rw [stages_8_11, stages_4_7, stages_0_3]
  rw [ks_eq 1 4095 0 (by norm_num) (by norm_num) (by norm_num), ks_eq 2 4094 1 (by norm_num) (by norm_num) (by norm_num),
    ks_eq 4 4092 2 (by norm_num) (by norm_num) (by norm_num), ks_eq 8 4088 3 (by norm_num) (by norm_num) (by norm_num),
    ks_eq 16 4080 4 (by norm_num) (by norm_num) (by norm_num), ks_eq 32 4064 5 (by norm_num) (by norm_num) (by norm_num),
    ks_eq 64 4032 6 (by norm_num) (by norm_num) (by norm_num), ks_eq 128 3968 7 (by norm_num) (by norm_num) (by norm_num),
    ks_eq 256 3840 8 (by norm_num) (by norm_num) (by norm_num), ks_eq 512 3584 9 (by norm_num) (by norm_num) (by norm_num),
    ks_eq 1024 3072 10 (by norm_num) (by norm_num) (by norm_num), ks_eq 2048 2048 11 (by norm_num) (by norm_num) (by norm_num)]
  rfl

/-! ## From the tiles to the array -/

variable (m : (ℓ : Loc nD τ sig) → Buf (Elt Ideal) ℓ) (ρ : Dev nD → PrngReg)

/-- The printed index maps, decided over the 64 points: point `t` stages, and writes back, block row `t` of block
    column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `a` of point `t`'s tile is row `128·t + a` of the array. -/
def rowOf (t : Fin cfg0.N) (a : Fin 128) : Fin 8192 :=
  ⟨t.val * 128 + a.val, by have := t.isLt; have hN : cfg0.N = 64 := N_0; have := a.isLt; omega⟩

/-- The input tile at point `t`: those rows of the argument, every column. -/
theorem iblk_eq (c : Dev nD) (t : Fin cfg0.N) :
    iblk m c 0 t = fun y : S128x4096.Idx => V m c main_arg0 (ix2 (rowOf t (y 0)) (y 1)) := by
  obtain ⟨e0, e1, -, -⟩ := idx_facts t
  funext y
  show V m c main_arg0 (((cfg0.win 0).blk t).view.emb y) = _
  refine congrArg (V m c main_arg0) ?_
  funext a; apply Fin.ext
  match a with
  | ⟨0, _⟩ =>
    show win0_0.index t (0 : Fin 2) * 128 + 1 * (y 0).val = t.val * 128 + (y 0).val
    rw [e0]; omega
  | ⟨1, _⟩ =>
    show win0_0.index t (1 : Fin 2) * 4096 + 1 * (y 1).val = (y 1).val
    rw [e1]; omega

/-- WHAT POINT `t` WRITES BACK is its block of the argument's transform: the transform acts row by row. -/
theorem flushed_eq (c : Dev nD) (t : Fin cfg0.N) :
    (dats m 0 c).flushed 1 t = ((cfg0.win 1).blk t).view.read (Elt Ideal) (fwht 8192 (V m c main_arg0)) := by
  rw [Cert.KernelIdeal.Value.flushed1, out_eq, iblk_eq, fwht_rows (rowOf t) (V m c main_arg0)]
  obtain ⟨-, -, e2, e3⟩ := idx_facts t
  funext y
  show fwht 8192 (V m c main_arg0) (ix2 (rowOf t (y 0)) (y 1))
    = fwht 8192 (V m c main_arg0) (((cfg0.win 1).blk t).view.emb y)
  refine congrArg (fwht 8192 (V m c main_arg0)) ?_
  funext a; apply Fin.ext
  match a with
  | ⟨0, _⟩ =>
    show t.val * 128 + (y 0).val = win0_1.index t (0 : Fin 2) * 128 + 1 * (y 0).val
    rw [e2]; omega
  | ⟨1, _⟩ =>
    show (y 1).val = win0_1.index t (1 : Fin 2) * 4096 + 1 * (y 1).val
    rw [e3]; omega

/-- An index of the array is in point `t`'s block iff each coordinate is in the block's range on its axis. -/
theorem mem_blk (t : Fin cfg0.N) (i : S8192x4096.Idx) :
    i ∈ ((cfg0.win 1).blk t).view.set ↔ ∀ a : Fin 2, win0_1.index t a * S128x4096.size a ≤ (i a).val
      ∧ (i a).val < win0_1.index t a * S128x4096.size a + S128x4096.size a := by
  show i ∈ ((View.whole main_v0).slice (win0_1.rect t)).set ↔ _
  rw [View.set_slice_whole, Rect.mem_set_unit]
  exact Iff.rfl

/-- The 64 blocks cover the array: row `r` lies in the block of point `r / 128`. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 128 := ⟨⟨(i 0).val / 128, by omega⟩, rfl⟩
  obtain ⟨-, -, e2, e3⟩ := idx_facts t
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    rw [e2, ht]; omega
  | ⟨1, _⟩ =>
    show win0_1.index t (1 : Fin 2) * 4096 ≤ (i 1).val ∧ (i 1).val < win0_1.index t (1 : Fin 2) * 4096 + 4096
    rw [e3]; omega

/-- THE RESULT ARRAY after the run: the transform of the argument. -/
theorem final (c : Dev nD) : (dats m 0 c).arrAt 1 cfg0.N = fwht 8192 (m ((c : Thread nD τ).loc main_arg0)) :=
  (dats m 0 c).arrAt_eq_of_cover 1 (fwht 8192 (V m c main_arg0)) (fun t _ => flushed_eq m c t) cover

/-- Every weakly fair execution of the kernel's program ends with its result at the transform of its argument, the
    argument unchanged. -/
theorem run : θ_run defs (onTc (τ := τ) (main (F := Ideal))) ⟨m, fun _ => 0, ρ⟩ fun r => ∀ c : Dev nD,
      r.2.mem ((c : Thread nD τ).loc main_v0) = fwht 8192 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.RefOps.lean ====
/- The reference's 132 host operations in the order the printed program runs them: as one line (`ops`), and cut
   into its 12 consecutive stages of 11 operations (`stg0` … `stg11`; stage `k` is the butterfly of stride `2^k`).
   A table copied from the printed program: no reasoning is in this file. -/
import proofs.«158363_j33071248180104_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Stage 0 (stride 1): operations 1–11. -/
abbrev stg0 : List (HloOp τ sig (Elt F)) :=
  [ StableHlo.reshape main_arg0 main_v0 rfl shapeCasts_S8192x4096_S8192x2048x2x1,
    StableHlo.unary main_v0 main_v1 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    StableHlo.reshape main_v1 main_v2 rfl shapeCasts_S8192x2048x1x1_S8192x2048x1,
    StableHlo.unary main_v0 main_v3 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    StableHlo.reshape main_v3 main_v4 rfl shapeCasts_S8192x2048x1x1_S8192x2048x1,
    StableHlo.binary main_v2 main_v4 main_v5 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v2 main_v4 main_v6 (subf : (⟨S8192x2048x1, .f32⟩ : BufTy).Contents (Elt F) → (⟨S8192x2048x1, .f32⟩ : BufTy).Contents (Elt F) → (⟨S8192x2048x1, .f32⟩ : BufTy).Contents (Elt F)),
    StableHlo.unary main_v5 main_v7 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.binary main_v7 main_v8 main_v9 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    StableHlo.reshape main_v9 main_v10 rfl shapeCasts_S8192x2048x2x1_S8192x4096 ]

/-- Stage 1 (stride 2): operations 12–22. -/
abbrev stg1 : List (HloOp τ sig (Elt F)) :=
  [ StableHlo.reshape main_v10 main_v11 rfl shapeCasts_S8192x4096_S8192x1024x2x2,
    StableHlo.unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    StableHlo.reshape main_v12 main_v13 rfl shapeCasts_S8192x1024x1x2_S8192x1024x2,
    StableHlo.unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    StableHlo.reshape main_v14 main_v15 rfl shapeCasts_S8192x1024x1x2_S8192x1024x2,
    StableHlo.binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    StableHlo.unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    StableHlo.reshape main_v20 main_v21 rfl shapeCasts_S8192x1024x2x2_S8192x4096 ]

/-- Stage 2 (stride 4): operations 23–33. -/
abbrev stg2 : List (HloOp τ sig (Elt F)) :=
  [ StableHlo.reshape main_v21 main_v22 rfl shapeCasts_S8192x4096_S8192x512x2x4,
    StableHlo.unary main_v22 main_v23 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    StableHlo.reshape main_v23 main_v24 rfl shapeCasts_S8192x512x1x4_S8192x512x4,
    StableHlo.unary main_v22 main_v25 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    StableHlo.reshape main_v25 main_v26 rfl shapeCasts_S8192x512x1x4_S8192x512x4,
    StableHlo.binary main_v24 main_v26 main_v27 (addf : (⟨S8192x512x4, .f32⟩ : BufTy).Contents (Elt F) → (⟨S8192x512x4, .f32⟩ : BufTy).Contents (Elt F) → (⟨S8192x512x4, .f32⟩ : BufTy).Contents (Elt F)),
    StableHlo.binary main_v24 main_v26 main_v28 (subf : (⟨S8192x512x4, .f32⟩ : BufTy).Contents (Elt F) → (⟨S8192x512x4, .f32⟩ : BufTy).Contents (Elt F) → (⟨S8192x512x4, .f32⟩ : BufTy).Contents (Elt F)),
    StableHlo.unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.unary main_v28 main_v30 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.binary main_v29 main_v30 main_v31 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    StableHlo.reshape main_v31 main_v32 rfl shapeCasts_S8192x512x2x4_S8192x4096 ]

/-- Stage 3 (stride 8): operations 34–44. -/
abbrev stg3 : List (HloOp τ sig (Elt F)) :=
  [ StableHlo.reshape main_v32 main_v33 rfl shapeCasts_S8192x4096_S8192x256x2x8,
    StableHlo.unary main_v33 main_v34 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    StableHlo.reshape main_v34 main_v35 rfl shapeCasts_S8192x256x1x8_S8192x256x8,
    StableHlo.unary main_v33 main_v36 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    StableHlo.reshape main_v36 main_v37 rfl shapeCasts_S8192x256x1x8_S8192x256x8,
    StableHlo.binary main_v35 main_v37 main_v38 (addf : (⟨S8192x256x8, .f32⟩ : BufTy).Contents (Elt F) → (⟨S8192x256x8, .f32⟩ : BufTy).Contents (Elt F) → (⟨S8192x256x8, .f32⟩ : BufTy).Contents (Elt F)),
    StableHlo.binary main_v35 main_v37 main_v39 (subf : (⟨S8192x256x8, .f32⟩ : BufTy).Contents (Elt F) → (⟨S8192x256x8, .f32⟩ : BufTy).Contents (Elt F) → (⟨S8192x256x8, .f32⟩ : BufTy).Contents (Elt F)),
    StableHlo.unary main_v38 main_v40 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.unary main_v39 main_v41 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.binary main_v40 main_v41 main_v42 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    StableHlo.reshape main_v42 main_v43 rfl shapeCasts_S8192x256x2x8_S8192x4096 ]

/-- Stage 4 (stride 16): operations 45–55. -/
abbrev stg4 : List (HloOp τ sig (Elt F)) :=
  [ StableHlo.reshape main_v43 main_v44 rfl shapeCasts_S8192x4096_S8192x128x2x16,
    StableHlo.unary main_v44 main_v45 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    StableHlo.reshape main_v45 main_v46 rfl shapeCasts_S8192x128x1x16_S8192x128x16,
    StableHlo.unary main_v44 main_v47 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    StableHlo.reshape main_v47 main_v48 rfl shapeCasts_S8192x128x1x16_S8192x128x16,
    StableHlo.binary main_v46 main_v48 main_v49 (addf : (⟨S8192x128x16, .f32⟩ : BufTy).Contents (Elt F) → (⟨S8192x128x16, .f32⟩ : BufTy).Contents (Elt F) → (⟨S8192x128x16, .f32⟩ : BufTy).Contents (Elt F)),
    StableHlo.binary main_v46 main_v48 main_v50 (subf : (⟨S8192x128x16, .f32⟩ : BufTy).Contents (Elt F) → (⟨S8192x128x16, .f32⟩ : BufTy).Contents (Elt F) → (⟨S8192x128x16, .f32⟩ : BufTy).Contents (Elt F)),
    StableHlo.unary main_v49 main_v51 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.unary main_v50 main_v52 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.binary main_v51 main_v52 main_v53 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    StableHlo.reshape main_v53 main_v54 rfl shapeCasts_S8192x128x2x16_S8192x4096 ]

/-- Stage 5 (stride 32): operations 56–66. -/
abbrev stg5 : List (HloOp τ sig (Elt F)) :=
  [ StableHlo.reshape main_v54 main_v55 rfl shapeCasts_S8192x4096_S8192x64x2x32,
    StableHlo.unary main_v55 main_v56 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    StableHlo.reshape main_v56 main_v57 rfl shapeCasts_S8192x64x1x32_S8192x64x32,
    StableHlo.unary main_v55 main_v58 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    StableHlo.reshape main_v58 main_v59 rfl shapeCasts_S8192x64x1x32_S8192x64x32,
    StableHlo.binary main_v57 main_v59 main_v60 (addf : (⟨S8192x64x32, .f32⟩ : BufTy).Contents (Elt F) → (⟨S8192x64x32, .f32⟩ : BufTy).Contents (Elt F) → (⟨S8192x64x32, .f32⟩ : BufTy).Contents (Elt F)),
    StableHlo.binary main_v57 main_v59 main_v61 (subf : (⟨S8192x64x32, .f32⟩ : BufTy).Contents (Elt F) → (⟨S8192x64x32, .f32⟩ : BufTy).Contents (Elt F) → (⟨S8192x64x32, .f32⟩ : BufTy).Contents (Elt F)),
    StableHlo.unary main_v60 main_v62 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.unary main_v61 main_v63 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.binary main_v62 main_v63 main_v64 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    StableHlo.reshape main_v64 main_v65 rfl shapeCasts_S8192x64x2x32_S8192x4096 ]

/-- Stage 6 (stride 64): operations 67–77. -/
abbrev stg6 : List (HloOp τ sig (Elt F)) :=
  [ StableHlo.reshape main_v65 main_v66 rfl shapeCasts_S8192x4096_S8192x32x2x64,
    StableHlo.unary main_v66 main_v67 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    StableHlo.reshape main_v67 main_v68 rfl shapeCasts_S8192x32x1x64_S8192x32x64,
    StableHlo.unary main_v66 main_v69 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    StableHlo.reshape main_v69 main_v70 rfl shapeCasts_S8192x32x1x64_S8192x32x64,
    StableHlo.binary main_v68 main_v70 main_v71 (addf : (⟨S8192x32x64, .f32⟩ : BufTy).Contents (Elt F) → (⟨S8192x32x64, .f32⟩ : BufTy).Contents (Elt F) → (⟨S8192x32x64, .f32⟩ : BufTy).Contents (Elt F)),
    StableHlo.binary main_v68 main_v70 main_v72 (subf : (⟨S8192x32x64, .f32⟩ : BufTy).Contents (Elt F) → (⟨S8192x32x64, .f32⟩ : BufTy).Contents (Elt F) → (⟨S8192x32x64, .f32⟩ : BufTy).Contents (Elt F)),
    StableHlo.unary main_v71 main_v73 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.unary main_v72 main_v74 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.binary main_v73 main_v74 main_v75 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    StableHlo.reshape main_v75 main_v76 rfl shapeCasts_S8192x32x2x64_S8192x4096 ]

/-- Stage 7 (stride 128): operations 78–88. -/
abbrev stg7 : List (HloOp τ sig (Elt F)) :=
  [ StableHlo.reshape main_v76 main_v77 rfl shapeCasts_S8192x4096_S8192x16x2x128,
    StableHlo.unary main_v77 main_v78 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    StableHlo.reshape main_v78 main_v79 rfl shapeCasts_S8192x16x1x128_S8192x16x128,
    StableHlo.unary main_v77 main_v80 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    StableHlo.reshape main_v80 main_v81 rfl shapeCasts_S8192x16x1x128_S8192x16x128,
    StableHlo.binary main_v79 main_v81 main_v82 (addf : (⟨S8192x16x128, .f32⟩ : BufTy).Contents (Elt F) → (⟨S8192x16x128, .f32⟩ : BufTy).Contents (Elt F) → (⟨S8192x16x128, .f32⟩ : BufTy).Contents (Elt F)),
    StableHlo.binary main_v79 main_v81 main_v83 (subf : (⟨S8192x16x128, .f32⟩ : BufTy).Contents (Elt F) → (⟨S8192x16x128, .f32⟩ : BufTy).Contents (Elt F) → (⟨S8192x16x128, .f32⟩ : BufTy).Contents (Elt F)),
    StableHlo.unary main_v82 main_v84 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.unary main_v83 main_v85 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.binary main_v84 main_v85 main_v86 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    StableHlo.reshape main_v86 main_v87 rfl shapeCasts_S8192x16x2x128_S8192x4096 ]

/-- Stage 8 (stride 256): operations 89–99. -/
abbrev stg8 : List (HloOp τ sig (Elt F)) :=
  [ StableHlo.reshape main_v87 main_v88 rfl shapeCasts_S8192x4096_S8192x8x2x256,
    StableHlo.unary main_v88 main_v89 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    StableHlo.reshape main_v89 main_v90 rfl shapeCasts_S8192x8x1x256_S8192x8x256,
    StableHlo.unary main_v88 main_v91 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    StableHlo.reshape main_v91 main_v92 rfl shapeCasts_S8192x8x1x256_S8192x8x256,
    StableHlo.binary main_v90 main_v92 main_v93 (addf : (⟨S8192x8x256, .f32⟩ : BufTy).Contents (Elt F) → (⟨S8192x8x256, .f32⟩ : BufTy).Contents (Elt F) → (⟨S8192x8x256, .f32⟩ : BufTy).Contents (Elt F)),
    StableHlo.binary main_v90 main_v92 main_v94 (subf : (⟨S8192x8x256, .f32⟩ : BufTy).Contents (Elt F) → (⟨S8192x8x256, .f32⟩ : BufTy).Contents (Elt F) → (⟨S8192x8x256, .f32⟩ : BufTy).Contents (Elt F)),
    StableHlo.unary main_v93 main_v95 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.unary main_v94 main_v96 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.binary main_v95 main_v96 main_v97 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    StableHlo.reshape main_v97 main_v98 rfl shapeCasts_S8192x8x2x256_S8192x4096 ]

/-- Stage 9 (stride 512): operations 100–110. -/
abbrev stg9 : List (HloOp τ sig (Elt F)) :=
  [ StableHlo.reshape main_v98 main_v99 rfl shapeCasts_S8192x4096_S8192x4x2x512,
    StableHlo.unary main_v99 main_v100 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    StableHlo.reshape main_v100 main_v101 rfl shapeCasts_S8192x4x1x512_S8192x4x512,
    StableHlo.unary main_v99 main_v102 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    StableHlo.reshape main_v102 main_v103 rfl shapeCasts_S8192x4x1x512_S8192x4x512,
    StableHlo.binary main_v101 main_v103 main_v104 (addf : (⟨S8192x4x512, .f32⟩ : BufTy).Contents (Elt F) → (⟨S8192x4x512, .f32⟩ : BufTy).Contents (Elt F) → (⟨S8192x4x512, .f32⟩ : BufTy).Contents (Elt F)),
    StableHlo.binary main_v101 main_v103 main_v105 (subf : (⟨S8192x4x512, .f32⟩ : BufTy).Contents (Elt F) → (⟨S8192x4x512, .f32⟩ : BufTy).Contents (Elt F) → (⟨S8192x4x512, .f32⟩ : BufTy).Contents (Elt F)),
    StableHlo.unary main_v104 main_v106 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.unary main_v105 main_v107 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.binary main_v106 main_v107 main_v108 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    StableHlo.reshape main_v108 main_v109 rfl shapeCasts_S8192x4x2x512_S8192x4096 ]

/-- Stage 10 (stride 1024): operations 111–121. -/
abbrev stg10 : List (HloOp τ sig (Elt F)) :=
  [ StableHlo.reshape main_v109 main_v110 rfl shapeCasts_S8192x4096_S8192x2x2x1024,
    StableHlo.unary main_v110 main_v111 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    StableHlo.reshape main_v111 main_v112 rfl shapeCasts_S8192x2x1x1024_S8192x2x1024,
    StableHlo.unary main_v110 main_v113 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    StableHlo.reshape main_v113 main_v114 rfl shapeCasts_S8192x2x1x1024_S8192x2x1024,
    StableHlo.binary main_v112 main_v114 main_v115 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v112 main_v114 main_v116 (subf : (⟨S8192x2x1024, .f32⟩ : BufTy).Contents (Elt F) → (⟨S8192x2x1024, .f32⟩ : BufTy).Contents (Elt F) → (⟨S8192x2x1024, .f32⟩ : BufTy).Contents (Elt F)),
    StableHlo.unary main_v115 main_v117 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.unary main_v116 main_v118 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.binary main_v117 main_v118 main_v119 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    StableHlo.reshape main_v119 main_v120 rfl shapeCasts_S8192x2x2x1024_S8192x4096 ]

/-- Stage 11 (stride 2048): operations 122–132. -/
abbrev stg11 : List (HloOp τ sig (Elt F)) :=
  [ StableHlo.reshape main_v120 main_v121 rfl shapeCasts_S8192x4096_S8192x1x2x2048,
    StableHlo.unary main_v121 main_v122 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    StableHlo.reshape main_v122 main_v123 rfl shapeCasts_S8192x1x1x2048_S8192x1x2048,
    StableHlo.unary main_v121 main_v124 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    StableHlo.reshape main_v124 main_v125 rfl shapeCasts_S8192x1x1x2048_S8192x1x2048,
    StableHlo.binary main_v123 main_v125 main_v126 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v123 main_v125 main_v127 (subf : (⟨S8192x1x2048, .f32⟩ : BufTy).Contents (Elt F) → (⟨S8192x1x2048, .f32⟩ : BufTy).Contents (Elt F) → (⟨S8192x1x2048, .f32⟩ : BufTy).Contents (Elt F)),
    StableHlo.unary main_v126 main_v128 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.unary main_v127 main_v129 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.binary main_v128 main_v129 main_v130 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    StableHlo.reshape main_v130 main_v131 rfl shapeCasts_S8192x1x2x2048_S8192x4096 ]

/-- The whole line, in order. -/
abbrev ops : List (HloOp τ sig (Elt F)) :=
  [ StableHlo.reshape main_arg0 main_v0 rfl shapeCasts_S8192x4096_S8192x2048x2x1,
    StableHlo.unary main_v0 main_v1 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    StableHlo.reshape main_v1 main_v2 rfl shapeCasts_S8192x2048x1x1_S8192x2048x1,
    StableHlo.unary main_v0 main_v3 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    StableHlo.reshape main_v3 main_v4 rfl shapeCasts_S8192x2048x1x1_S8192x2048x1,
    StableHlo.binary main_v2 main_v4 main_v5 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v2 main_v4 main_v6 (subf : (⟨S8192x2048x1, .f32⟩ : BufTy).Contents (Elt F) → (⟨S8192x2048x1, .f32⟩ : BufTy).Contents (Elt F) → (⟨S8192x2048x1, .f32⟩ : BufTy).Contents (Elt F)),
    StableHlo.unary main_v5 main_v7 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.unary main_v6 main_v8 (broadcastInDim S8192x2048x1x1 ![0, 1, 3] bcast_S8192x2048x1_S8192x2048x1x1_0_1_3 : (⟨S8192x2048x1, .f32⟩ : BufTy).Contents (Elt F) → (⟨S8192x2048x1x1, .f32⟩ : BufTy).Contents (Elt F)),
    StableHlo.binary main_v7 main_v8 main_v9 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    StableHlo.reshape main_v9 main_v10 rfl shapeCasts_S8192x2048x2x1_S8192x4096,
    StableHlo.reshape main_v10 main_v11 rfl shapeCasts_S8192x4096_S8192x1024x2x2,
    StableHlo.unary main_v11 main_v12 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    StableHlo.reshape main_v12 main_v13 rfl shapeCasts_S8192x1024x1x2_S8192x1024x2,
    StableHlo.unary main_v11 main_v14 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    StableHlo.reshape main_v14 main_v15 rfl shapeCasts_S8192x1024x1x2_S8192x1024x2,
    StableHlo.binary main_v13 main_v15 main_v16 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v13 main_v15 main_v17 (subf : (⟨S8192x1024x2, .f32⟩ : BufTy).Contents (Elt F) → (⟨S8192x1024x2, .f32⟩ : BufTy).Contents (Elt F) → (⟨S8192x1024x2, .f32⟩ : BufTy).Contents (Elt F)),
    StableHlo.unary main_v16 main_v18 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.unary main_v17 main_v19 (broadcastInDim S8192x1024x1x2 ![0, 1, 3] bcast_S8192x1024x2_S8192x1024x1x2_0_1_3 : (⟨S8192x1024x2, .f32⟩ : BufTy).Contents (Elt F) → (⟨S8192x1024x1x2, .f32⟩ : BufTy).Contents (Elt F)),
    StableHlo.binary main_v18 main_v19 main_v20 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    StableHlo.reshape main_v20 main_v21 rfl shapeCasts_S8192x1024x2x2_S8192x4096,
    StableHlo.reshape main_v21 main_v22 rfl shapeCasts_S8192x4096_S8192x512x2x4,
    StableHlo.unary main_v22 main_v23 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    StableHlo.reshape main_v23 main_v24 rfl shapeCasts_S8192x512x1x4_S8192x512x4,
    StableHlo.unary main_v22 main_v25 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    StableHlo.reshape main_v25 main_v26 rfl shapeCasts_S8192x512x1x4_S8192x512x4,
    StableHlo.binary main_v24 main_v26 main_v27 (addf : (⟨S8192x512x4, .f32⟩ : BufTy).Contents (Elt F) → (⟨S8192x512x4, .f32⟩ : BufTy).Contents (Elt F) → (⟨S8192x512x4, .f32⟩ : BufTy).Contents (Elt F)),
    StableHlo.binary main_v24 main_v26 main_v28 (subf : (⟨S8192x512x4, .f32⟩ : BufTy).Contents (Elt F) → (⟨S8192x512x4, .f32⟩ : BufTy).Contents (Elt F) → (⟨S8192x512x4, .f32⟩ : BufTy).Contents (Elt F)),
    StableHlo.unary main_v27 main_v29 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.unary main_v28 main_v30 (broadcastInDim S8192x512x1x4 ![0, 1, 3] bcast_S8192x512x4_S8192x512x1x4_0_1_3 : (⟨S8192x512x4, .f32⟩ : BufTy).Contents (Elt F) → (⟨S8192x512x1x4, .f32⟩ : BufTy).Contents (Elt F)),
    StableHlo.binary main_v29 main_v30 main_v31 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    StableHlo.reshape main_v31 main_v32 rfl shapeCasts_S8192x512x2x4_S8192x4096,
    StableHlo.reshape main_v32 main_v33 rfl shapeCasts_S8192x4096_S8192x256x2x8,
    StableHlo.unary main_v33 main_v34 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    StableHlo.reshape main_v34 main_v35 rfl shapeCasts_S8192x256x1x8_S8192x256x8,
    StableHlo.unary main_v33 main_v36 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    StableHlo.reshape main_v36 main_v37 rfl shapeCasts_S8192x256x1x8_S8192x256x8,
    StableHlo.binary main_v35 main_v37 main_v38 (addf : (⟨S8192x256x8, .f32⟩ : BufTy).Contents (Elt F) → (⟨S8192x256x8, .f32⟩ : BufTy).Contents (Elt F) → (⟨S8192x256x8, .f32⟩ : BufTy).Contents (Elt F)),
    StableHlo.binary main_v35 main_v37 main_v39 (subf : (⟨S8192x256x8, .f32⟩ : BufTy).Contents (Elt F) → (⟨S8192x256x8, .f32⟩ : BufTy).Contents (Elt F) → (⟨S8192x256x8, .f32⟩ : BufTy).Contents (Elt F)),
    StableHlo.unary main_v38 main_v40 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.unary main_v39 main_v41 (broadcastInDim S8192x256x1x8 ![0, 1, 3] bcast_S8192x256x8_S8192x256x1x8_0_1_3 : (⟨S8192x256x8, .f32⟩ : BufTy).Contents (Elt F) → (⟨S8192x256x1x8, .f32⟩ : BufTy).Contents (Elt F)),
    StableHlo.binary main_v40 main_v41 main_v42 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    StableHlo.reshape main_v42 main_v43 rfl shapeCasts_S8192x256x2x8_S8192x4096,
    StableHlo.reshape main_v43 main_v44 rfl shapeCasts_S8192x4096_S8192x128x2x16,
    StableHlo.unary main_v44 main_v45 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    StableHlo.reshape main_v45 main_v46 rfl shapeCasts_S8192x128x1x16_S8192x128x16,
    StableHlo.unary main_v44 main_v47 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    StableHlo.reshape main_v47 main_v48 rfl shapeCasts_S8192x128x1x16_S8192x128x16,
    StableHlo.binary main_v46 main_v48 main_v49 (addf : (⟨S8192x128x16, .f32⟩ : BufTy).Contents (Elt F) → (⟨S8192x128x16, .f32⟩ : BufTy).Contents (Elt F) → (⟨S8192x128x16, .f32⟩ : BufTy).Contents (Elt F)),
    StableHlo.binary main_v46 main_v48 main_v50 (subf : (⟨S8192x128x16, .f32⟩ : BufTy).Contents (Elt F) → (⟨S8192x128x16, .f32⟩ : BufTy).Contents (Elt F) → (⟨S8192x128x16, .f32⟩ : BufTy).Contents (Elt F)),
    StableHlo.unary main_v49 main_v51 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.unary main_v50 main_v52 (broadcastInDim S8192x128x1x16 ![0, 1, 3] bcast_S8192x128x16_S8192x128x1x16_0_1_3 : (⟨S8192x128x16, .f32⟩ : BufTy).Contents (Elt F) → (⟨S8192x128x1x16, .f32⟩ : BufTy).Contents (Elt F)),
    StableHlo.binary main_v51 main_v52 main_v53 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    StableHlo.reshape main_v53 main_v54 rfl shapeCasts_S8192x128x2x16_S8192x4096,
    StableHlo.reshape main_v54 main_v55 rfl shapeCasts_S8192x4096_S8192x64x2x32,
    StableHlo.unary main_v55 main_v56 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    StableHlo.reshape main_v56 main_v57 rfl shapeCasts_S8192x64x1x32_S8192x64x32,
    StableHlo.unary main_v55 main_v58 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    StableHlo.reshape main_v58 main_v59 rfl shapeCasts_S8192x64x1x32_S8192x64x32,
    StableHlo.binary main_v57 main_v59 main_v60 (addf : (⟨S8192x64x32, .f32⟩ : BufTy).Contents (Elt F) → (⟨S8192x64x32, .f32⟩ : BufTy).Contents (Elt F) → (⟨S8192x64x32, .f32⟩ : BufTy).Contents (Elt F)),
    StableHlo.binary main_v57 main_v59 main_v61 (subf : (⟨S8192x64x32, .f32⟩ : BufTy).Contents (Elt F) → (⟨S8192x64x32, .f32⟩ : BufTy).Contents (Elt F) → (⟨S8192x64x32, .f32⟩ : BufTy).Contents (Elt F)),
    StableHlo.unary main_v60 main_v62 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.unary main_v61 main_v63 (broadcastInDim S8192x64x1x32 ![0, 1, 3] bcast_S8192x64x32_S8192x64x1x32_0_1_3 : (⟨S8192x64x32, .f32⟩ : BufTy).Contents (Elt F) → (⟨S8192x64x1x32, .f32⟩ : BufTy).Contents (Elt F)),
    StableHlo.binary main_v62 main_v63 main_v64 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    StableHlo.reshape main_v64 main_v65 rfl shapeCasts_S8192x64x2x32_S8192x4096,
    StableHlo.reshape main_v65 main_v66 rfl shapeCasts_S8192x4096_S8192x32x2x64,
    StableHlo.unary main_v66 main_v67 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    StableHlo.reshape main_v67 main_v68 rfl shapeCasts_S8192x32x1x64_S8192x32x64,
    StableHlo.unary main_v66 main_v69 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    StableHlo.reshape main_v69 main_v70 rfl shapeCasts_S8192x32x1x64_S8192x32x64,
    StableHlo.binary main_v68 main_v70 main_v71 (addf : (⟨S8192x32x64, .f32⟩ : BufTy).Contents (Elt F) → (⟨S8192x32x64, .f32⟩ : BufTy).Contents (Elt F) → (⟨S8192x32x64, .f32⟩ : BufTy).Contents (Elt F)),
    StableHlo.binary main_v68 main_v70 main_v72 (subf : (⟨S8192x32x64, .f32⟩ : BufTy).Contents (Elt F) → (⟨S8192x32x64, .f32⟩ : BufTy).Contents (Elt F) → (⟨S8192x32x64, .f32⟩ : BufTy).Contents (Elt F)),
    StableHlo.unary main_v71 main_v73 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.unary main_v72 main_v74 (broadcastInDim S8192x32x1x64 ![0, 1, 3] bcast_S8192x32x64_S8192x32x1x64_0_1_3 : (⟨S8192x32x64, .f32⟩ : BufTy).Contents (Elt F) → (⟨S8192x32x1x64, .f32⟩ : BufTy).Contents (Elt F)),
    StableHlo.binary main_v73 main_v74 main_v75 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    StableHlo.reshape main_v75 main_v76 rfl shapeCasts_S8192x32x2x64_S8192x4096,
    StableHlo.reshape main_v76 main_v77 rfl shapeCasts_S8192x4096_S8192x16x2x128,
    StableHlo.unary main_v77 main_v78 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    StableHlo.reshape main_v78 main_v79 rfl shapeCasts_S8192x16x1x128_S8192x16x128,
    StableHlo.unary main_v77 main_v80 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    StableHlo.reshape main_v80 main_v81 rfl shapeCasts_S8192x16x1x128_S8192x16x128,
    StableHlo.binary main_v79 main_v81 main_v82 (addf : (⟨S8192x16x128, .f32⟩ : BufTy).Contents (Elt F) → (⟨S8192x16x128, .f32⟩ : BufTy).Contents (Elt F) → (⟨S8192x16x128, .f32⟩ : BufTy).Contents (Elt F)),
    StableHlo.binary main_v79 main_v81 main_v83 (subf : (⟨S8192x16x128, .f32⟩ : BufTy).Contents (Elt F) → (⟨S8192x16x128, .f32⟩ : BufTy).Contents (Elt F) → (⟨S8192x16x128, .f32⟩ : BufTy).Contents (Elt F)),
    StableHlo.unary main_v82 main_v84 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.unary main_v83 main_v85 (broadcastInDim S8192x16x1x128 ![0, 1, 3] bcast_S8192x16x128_S8192x16x1x128_0_1_3 : (⟨S8192x16x128, .f32⟩ : BufTy).Contents (Elt F) → (⟨S8192x16x1x128, .f32⟩ : BufTy).Contents (Elt F)),
    StableHlo.binary main_v84 main_v85 main_v86 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    StableHlo.reshape main_v86 main_v87 rfl shapeCasts_S8192x16x2x128_S8192x4096,
    StableHlo.reshape main_v87 main_v88 rfl shapeCasts_S8192x4096_S8192x8x2x256,
    StableHlo.unary main_v88 main_v89 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    StableHlo.reshape main_v89 main_v90 rfl shapeCasts_S8192x8x1x256_S8192x8x256,
    StableHlo.unary main_v88 main_v91 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    StableHlo.reshape main_v91 main_v92 rfl shapeCasts_S8192x8x1x256_S8192x8x256,
    StableHlo.binary main_v90 main_v92 main_v93 (addf : (⟨S8192x8x256, .f32⟩ : BufTy).Contents (Elt F) → (⟨S8192x8x256, .f32⟩ : BufTy).Contents (Elt F) → (⟨S8192x8x256, .f32⟩ : BufTy).Contents (Elt F)),
    StableHlo.binary main_v90 main_v92 main_v94 (subf : (⟨S8192x8x256, .f32⟩ : BufTy).Contents (Elt F) → (⟨S8192x8x256, .f32⟩ : BufTy).Contents (Elt F) → (⟨S8192x8x256, .f32⟩ : BufTy).Contents (Elt F)),
    StableHlo.unary main_v93 main_v95 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.unary main_v94 main_v96 (broadcastInDim S8192x8x1x256 ![0, 1, 3] bcast_S8192x8x256_S8192x8x1x256_0_1_3 : (⟨S8192x8x256, .f32⟩ : BufTy).Contents (Elt F) → (⟨S8192x8x1x256, .f32⟩ : BufTy).Contents (Elt F)),
    StableHlo.binary main_v95 main_v96 main_v97 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    StableHlo.reshape main_v97 main_v98 rfl shapeCasts_S8192x8x2x256_S8192x4096,
    StableHlo.reshape main_v98 main_v99 rfl shapeCasts_S8192x4096_S8192x4x2x512,
    StableHlo.unary main_v99 main_v100 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    StableHlo.reshape main_v100 main_v101 rfl shapeCasts_S8192x4x1x512_S8192x4x512,
    StableHlo.unary main_v99 main_v102 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    StableHlo.reshape main_v102 main_v103 rfl shapeCasts_S8192x4x1x512_S8192x4x512,
    StableHlo.binary main_v101 main_v103 main_v104 (addf : (⟨S8192x4x512, .f32⟩ : BufTy).Contents (Elt F) → (⟨S8192x4x512, .f32⟩ : BufTy).Contents (Elt F) → (⟨S8192x4x512, .f32⟩ : BufTy).Contents (Elt F)),
    StableHlo.binary main_v101 main_v103 main_v105 (subf : (⟨S8192x4x512, .f32⟩ : BufTy).Contents (Elt F) → (⟨S8192x4x512, .f32⟩ : BufTy).Contents (Elt F) → (⟨S8192x4x512, .f32⟩ : BufTy).Contents (Elt F)),
    StableHlo.unary main_v104 main_v106 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.unary main_v105 main_v107 (broadcastInDim S8192x4x1x512 ![0, 1, 3] bcast_S8192x4x512_S8192x4x1x512_0_1_3 : (⟨S8192x4x512, .f32⟩ : BufTy).Contents (Elt F) → (⟨S8192x4x1x512, .f32⟩ : BufTy).Contents (Elt F)),
    StableHlo.binary main_v106 main_v107 main_v108 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    StableHlo.reshape main_v108 main_v109 rfl shapeCasts_S8192x4x2x512_S8192x4096,
    StableHlo.reshape main_v109 main_v110 rfl shapeCasts_S8192x4096_S8192x2x2x1024,
    StableHlo.unary main_v110 main_v111 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    StableHlo.reshape main_v111 main_v112 rfl shapeCasts_S8192x2x1x1024_S8192x2x1024,
    StableHlo.unary main_v110 main_v113 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    StableHlo.reshape main_v113 main_v114 rfl shapeCasts_S8192x2x1x1024_S8192x2x1024,
    StableHlo.binary main_v112 main_v114 main_v115 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v112 main_v114 main_v116 (subf : (⟨S8192x2x1024, .f32⟩ : BufTy).Contents (Elt F) → (⟨S8192x2x1024, .f32⟩ : BufTy).Contents (Elt F) → (⟨S8192x2x1024, .f32⟩ : BufTy).Contents (Elt F)),
    StableHlo.unary main_v115 main_v117 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.unary main_v116 main_v118 (broadcastInDim S8192x2x1x1024 ![0, 1, 3] bcast_S8192x2x1024_S8192x2x1x1024_0_1_3 : (⟨S8192x2x1024, .f32⟩ : BufTy).Contents (Elt F) → (⟨S8192x2x1x1024, .f32⟩ : BufTy).Contents (Elt F)),
    StableHlo.binary main_v117 main_v118 main_v119 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    StableHlo.reshape main_v119 main_v120 rfl shapeCasts_S8192x2x2x1024_S8192x4096,
    StableHlo.reshape main_v120 main_v121 rfl shapeCasts_S8192x4096_S8192x1x2x2048,
    StableHlo.unary main_v121 main_v122 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    StableHlo.reshape main_v122 main_v123 rfl shapeCasts_S8192x1x1x2048_S8192x1x2048,
    StableHlo.unary main_v121 main_v124 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    StableHlo.reshape main_v124 main_v125 rfl shapeCasts_S8192x1x1x2048_S8192x1x2048,
    StableHlo.binary main_v123 main_v125 main_v126 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v123 main_v125 main_v127 (subf : (⟨S8192x1x2048, .f32⟩ : BufTy).Contents (Elt F) → (⟨S8192x1x2048, .f32⟩ : BufTy).Contents (Elt F) → (⟨S8192x1x2048, .f32⟩ : BufTy).Contents (Elt F)),
    StableHlo.unary main_v126 main_v128 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.unary main_v127 main_v129 (broadcastInDim S8192x1x1x2048 ![0, 1, 3] bcast_S8192x1x2048_S8192x1x1x2048_0_1_3 : (⟨S8192x1x2048, .f32⟩ : BufTy).Contents (Elt F) → (⟨S8192x1x1x2048, .f32⟩ : BufTy).Contents (Elt F)),
    StableHlo.binary main_v128 main_v129 main_v130 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    StableHlo.reshape main_v130 main_v131 rfl shapeCasts_S8192x1x2x2048_S8192x4096 ]

end Cert.ReferenceIdeal.Ops

end
-- ==== Proof.RefRun.lean ====
/-
  The reference runs: every weakly fair execution of its @main — a straight line of host operations — terminates
  with every buffer at what the line leaves in it from the launch contents (the fold `after ops`).
-/
import proofs.«158363_j33071248180104_1_alg».proof.Proof.RefOps

noncomputable section

namespace Cert.ReferenceIdeal.Whole

open Cert.ReferenceIdeal Cert.ReferenceIdeal.Gen Cert.ReferenceIdeal.Ops Idealize.ShloMosaic Idealize.ShloMosaic.TcCoe
open Idealize.SL.Sem Idealize.ShloMosaic.StableHlo

variable {F : FTy → Type} [FloatOps F]

set_option maxRecDepth 8192 in
set_option maxHeartbeats 4000000 in
/-- @main is its operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig := by
  simp only [List.Forall, reshape_bufs_sub, unary_bufs_sub, binary_bufs_sub, and_self]

/-- The line is its twelve stages one after the other. -/
theorem ops_split : (ops : List (HloOp τ sig (Elt F)))
    = stg0 ++ (stg1 ++ (stg2 ++ (stg3 ++ (stg4 ++ (stg5 ++ (stg6 ++ (stg7 ++ (stg8 ++ (stg9 ++ (stg10 ++ stg11)))))))))) := rfl

/-- Every weakly fair execution of @main terminates with each buffer at the line's fold of the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Whole

end
-- ==== Proof.RefStage.lean ====
/-
  One stage of the reference, read entry by entry.

  The reference computes a stage of stride `st` by viewing each row of 4096 entries as `nb` blocks of two halves of
  `st` entries (`nb · 2 · st = 4096`), taking the two halves `a` and `b` of every block, and putting `a + b` and
  `a - b` back as the block's two halves. Column `(blk·2 + h)·st + o` of a row is entry `o` of half `h` of block `blk`;
  so the result there is `x(blk,0,o) + x(blk,1,o)` when `h = 0` and `x(blk,0,o) - x(blk,1,o)` when `h = 1`: the
  butterfly of stride `st`, the partner of a column being `st` columns further on (first half) or back (second half).
-/
import Idealize.ShloMosaic.PureOps.Ideal
import Idealize.ShloMosaic.Lib.ValueIdx
import Idealize.ShloMosaic.Lib.Pipeline.Value
import proofs.«158363_j33071248180104_1_alg».proof.Proof.Butterfly

noncomputable section

namespace Cert.RefStage

open Idealize.ShloMosaic Idealize.ShloMosaic.ValueIdx Cert.Butterfly

/-! ## Columns as (block, half, entry) -/

/-- A position inside a row of `nb` blocks of two halves of `st` entries is below `nb · (2 · st)`. -/
theorem col_lt {nb st : Nat} (b h o : Nat) (hb : b < nb) (hh : h < 2) (ho : o < st) :
    (b * 2 + h) * st + o < nb * (2 * st) := by
  have h1 : b * 2 + h + 1 ≤ nb * 2 := by omega
  have h2 : (b * 2 + h + 1) * st ≤ nb * 2 * st := Nat.mul_le_mul_right st h1
  rw [Nat.add_mul, Nat.one_mul] at h2
  rw [← Nat.mul_assoc]
  omega

/-- Every column is such a position: block `i / (2·st)`, half `i / st % 2`, entry `i % st`. -/
theorem col_split (st i : Nat) : (i / (2 * st) * 2 + i / st % 2) * st + i % st = i := by
  have e1 : i / (2 * st) = i / st / 2 := by rw [Nat.mul_comm, Nat.div_div_eq_div_mul]
  have e2 : i / st / 2 * 2 + i / st % 2 = i / st := by omega
  rw [e1, e2, Nat.mul_comm]
  exact Nat.div_add_mod i st

/-- The half a position lies in, recovered by division. -/
theorem col_half {st : Nat} (b h o : Nat) (hh : h < 2) (ho : o < st) : ((b * 2 + h) * st + o) / st % 2 = h := by
  have hst : 0 < st := by omega
  rw [Nat.mul_comm, Nat.mul_add_div hst, Nat.div_eq_of_lt ho]
  omega

/-- Entry `o` of half `h` of block `b`, as a column of the row. -/
def col {nb st : Nat} (hnb : nb * (2 * st) = 4096) (b : Fin nb) (h : Nat) (hh : h < 2) (o : Fin st) : Fin 4096 :=
  ⟨(b.val * 2 + h) * st + o.val, by rw [← hnb]; exact col_lt _ _ _ b.isLt hh o.isLt⟩

theorem col_val {nb st : Nat} (hnb : nb * (2 * st) = 4096) (b : Fin nb) (h : Nat) (hh : h < 2) (o : Fin st) :
    (col hnb b h hh o).val = (b.val * 2 + h) * st + o.val := rfl

/-! ## The shapes of one stage, and the stage as the reference spells it -/

/-- Rows as blocks of two halves. -/
abbrev S4 (R nb st : Nat) : Shape := ⟨4, ![R, nb, 2, st]⟩
/-- One half of every block, the half's axis kept. -/
abbrev S41 (R nb st : Nat) : Shape := ⟨4, ![R, nb, 1, st]⟩
/-- One half of every block. -/
abbrev S3 (R nb st : Nat) : Shape := ⟨3, ![R, nb, st]⟩

/-- Half `h` of every block of the array. -/
def half (R nb st h : Nat) (h1 : (Arr R).ShapeCasts (S4 R nb st))
    (hs : (S4 R nb st).Slices ![0, 0, h, 0] (S41 R nb st)) (h3 : (S41 R nb st).ShapeCasts (S3 R nb st))
    (x : FVec Ideal (Arr R) .f32) : FVec Ideal (S3 R nb st) .f32 :=
  shapeCast (S3 R nb st) (extractStridedSlice (S41 R nb st) ![0, 0, h, 0] (shapeCast (S4 R nb st) x h1) hs) h3

/-- One stage as the reference computes it: the two halves, their sum and difference stacked as the new halves,
    the rows put back. -/
def refStage (R nb st : Nat) (h1 : (Arr R).ShapeCasts (S4 R nb st))
    (h2 : (S4 R nb st).Slices ![0, 0, 0, 0] (S41 R nb st)) (h3 : (S41 R nb st).ShapeCasts (S3 R nb st))
    (h4 : (S4 R nb st).Slices ![0, 0, 1, 0] (S41 R nb st))
    (h5 : (S3 R nb st).BroadcastsInDim (S41 R nb st) (![0, 1, 3] : Fin 3 → Fin (S41 R nb st).rank))
    (h6 : Shape.Concatenates [S41 R nb st, S41 R nb st] (S4 R nb st) 2)
    (h7 : (S4 R nb st).ShapeCasts (Arr R)) (x : FVec Ideal (Arr R) .f32) : FVec Ideal (Arr R) .f32 :=
  shapeCast (Arr R) (concatenate (S4 R nb st) 2
    [⟨S41 R nb st, broadcastInDim (S41 R nb st) ![0, 1, 3] h5 (addf (half R nb st 0 h1 h2 h3 x) (half R nb st 1 h1 h4 h3 x))⟩,
     ⟨S41 R nb st, broadcastInDim (S41 R nb st) ![0, 1, 3] h5 (subf (half R nb st 0 h1 h2 h3 x) (half R nb st 1 h1 h4 h3 x))⟩] h6) h7

section Reads
variable {R nb st : Nat} (hnb : nb * (2 * st) = 4096)
include hnb

/-- The rows recast as blocks of halves, read at (row, block, half, entry): the array at that column. -/
theorem cast4_apply (h1 : (Arr R).ShapeCasts (S4 R nb st)) (x : FVec Ideal (Arr R) .f32)
    (p : Fin R) (b : Fin nb) (h : Nat) (hh : h < 2) (o : Fin st) :
    shapeCast (S4 R nb st) x h1 (ix4 p b (⟨h, hh⟩ : Fin 2) o) = x (ix2 p (col hnb b h hh o)) := by
  refine shapeCast_apply (s := Arr R) (t := S4 R nb st) x h1 (ix4 p b (⟨h, hh⟩ : Fin 2) o) (ix2 p (col hnb b h hh o)) ?_
  rw [Shape.rowMajor_val_two, Shape.rowMajor_val_four]
  show p.val * 4096 + ((b.val * 2 + h) * st + o.val) = ((p.val * nb + b.val) * 2 + h) * st + o.val
  rw [← hnb]; ring

/-- Half `h` read at (row, block, entry). -/
theorem half_apply (h : Nat) (hh : h < 2) (h1 : (Arr R).ShapeCasts (S4 R nb st))
    (hs : (S4 R nb st).Slices ![0, 0, h, 0] (S41 R nb st)) (h3 : (S41 R nb st).ShapeCasts (S3 R nb st))
    (x : FVec Ideal (Arr R) .f32) (p : Fin R) (b : Fin nb) (o : Fin st) :
    half R nb st h h1 hs h3 x (ix3 p b o) = x (ix2 p (col hnb b h hh o)) := by
  unfold half
  refine (shapeCast_apply (s := S41 R nb st) (t := S3 R nb st) _ h3 (ix3 p b o) (ix4 p b (0 : Fin 1) o) ?_).trans ?_
  · rw [Shape.rowMajor_val_four, Shape.rowMajor_val_three]
    show ((p.val * nb + b.val) * 1 + 0) * st + o.val = (p.val * nb + b.val) * st + o.val
    rw [Nat.mul_one, Nat.add_zero]
  · refine (extractStridedSlice_apply (s := S4 R nb st) (t := S41 R nb st) ![0, 0, h, 0] _ hs (ix4 p b (0 : Fin 1) o) (ix4 p b (⟨h, hh⟩ : Fin 2) o) fun a => ?_).trans
      (cast4_apply hnb h1 x p b h hh o)
    match a with
    | ⟨0, _⟩ => exact (Nat.zero_add _).symm
    | ⟨1, _⟩ => exact (Nat.zero_add _).symm
    | ⟨2, _⟩ => exact (Nat.add_zero _).symm
    | ⟨3, _⟩ => exact (Nat.zero_add _).symm

/-- The reference's stage read at entry `o` of half `h` of block `b` of row `p`: the sum of the block's two halves
    there in the first half, their difference in the second. -/
theorem refStage_col (h1 : (Arr R).ShapeCasts (S4 R nb st))
    (h2 : (S4 R nb st).Slices ![0, 0, 0, 0] (S41 R nb st)) (h3 : (S41 R nb st).ShapeCasts (S3 R nb st))
    (h4 : (S4 R nb st).Slices ![0, 0, 1, 0] (S41 R nb st))
    (h5 : (S3 R nb st).BroadcastsInDim (S41 R nb st) (![0, 1, 3] : Fin 3 → Fin (S41 R nb st).rank))
    (h6 : Shape.Concatenates [S41 R nb st, S41 R nb st] (S4 R nb st) 2)
    (h7 : (S4 R nb st).ShapeCasts (Arr R)) (x : FVec Ideal (Arr R) .f32)
    (p : Fin R) (b : Fin nb) (h : Nat) (hh : h < 2) (o : Fin st) :
    refStage R nb st h1 h2 h3 h4 h5 h6 h7 x (ix2 p (col hnb b h hh o))
      = if h = 0 then x (ix2 p (col hnb b 0 (by norm_num) o)) + x (ix2 p (col hnb b 1 (by norm_num) o))
        else x (ix2 p (col hnb b 0 (by norm_num) o)) - x (ix2 p (col hnb b 1 (by norm_num) o)) := by
  unfold refStage
  refine (shapeCast_apply (s := S4 R nb st) (t := Arr R) _ h7 (ix2 p (col hnb b h hh o)) (ix4 p b (⟨h, hh⟩ : Fin 2) o) ?_).trans ?_
  · rw [Shape.rowMajor_val_two, Shape.rowMajor_val_four]
    show ((p.val * nb + b.val) * 2 + h) * st + o.val = p.val * 4096 + ((b.val * 2 + h) * st + o.val)
    rw [← hnb]; ring
  -- an entry of a half, spread back over the kept unit axis, is the half's entry
  have hb : ∀ (y : FVec Ideal (S3 R nb st) .f32),
      broadcastInDim (S41 R nb st) ![0, 1, 3] h5 y (ix4 p b (0 : Fin 1) o) = y (ix3 p b o) := fun y =>
    broadcastInDim_apply (s := S3 R nb st) (t := S41 R nb st) _ h5 y (ix4 p b (0 : Fin 1) o) (ix3 p b o) fun a => by
      match a with
      | ⟨0, _⟩ =>
        show p.val = if R = 1 then 0 else p.val
        have := p.isLt; split_ifs <;> omega
      | ⟨1, _⟩ =>
        show b.val = if nb = 1 then 0 else b.val
        have := b.isLt; split_ifs <;> omega
      | ⟨2, _⟩ =>
        show o.val = if st = 1 then 0 else o.val
        have := o.isLt; split_ifs <;> omega
  have e0 := half_apply hnb 0 (by norm_num) h1 h2 h3 x p b o
  have e1 := half_apply hnb 1 (by norm_num) h1 h4 h3 x p b o
  rcases Nat.lt_succ_iff_lt_or_eq.mp hh with hlt | rfl
  · -- the first half: the first stacked piece
    obtain rfl : h = 0 := by omega
    rw [if_pos rfl]
    refine (concatenate_pair_apply_left (t := S4 R nb st) (s₁ := S41 R nb st) (s₂ := S41 R nb st) (2 : Fin 4) _ _ h6
      (ix4 p b (⟨0, hh⟩ : Fin 2) o) rfl (ix4 p b (0 : Fin 1) o) fun a => ?_).trans ?_
    · match a with
      | ⟨0, _⟩ => rfl
      | ⟨1, _⟩ => rfl
      | ⟨2, _⟩ => rfl
      | ⟨3, _⟩ => rfl
    · rw [hb]
      show half R nb st 0 h1 h2 h3 x (ix3 p b o) + half R nb st 1 h1 h4 h3 x (ix3 p b o) = _
      rw [e0, e1]
  · -- the second half: the second stacked piece
    rw [if_neg (by norm_num)]
    refine (concatenate_pair_apply_right (t := S4 R nb st) (s₁ := S41 R nb st) (s₂ := S41 R nb st) (2 : Fin 4) _ _ h6
      (ix4 p b (⟨1, hh⟩ : Fin 2) o) rfl rfl (ix4 p b (0 : Fin 1) o) (fun a ha => ?_) rfl).trans ?_
    · match a with
      | ⟨0, _⟩ => rfl
      | ⟨1, _⟩ => rfl
      | ⟨2, _⟩ => exact absurd rfl ha
      | ⟨3, _⟩ => rfl
    · rw [hb]
      show half R nb st 0 h1 h2 h3 x (ix3 p b o) - half R nb st 1 h1 h4 h3 x (ix3 p b o) = _
      rw [e0, e1]

/-- THE REFERENCE'S STAGE IS THE BUTTERFLY STAGE of stride `st`, for rows cut into `nb` blocks of two halves of `st`. -/
theorem refStage_eq (h1 : (Arr R).ShapeCasts (S4 R nb st))
    (h2 : (S4 R nb st).Slices ![0, 0, 0, 0] (S41 R nb st)) (h3 : (S41 R nb st).ShapeCasts (S3 R nb st))
    (h4 : (S4 R nb st).Slices ![0, 0, 1, 0] (S41 R nb st))
    (h5 : (S3 R nb st).BroadcastsInDim (S41 R nb st) (![0, 1, 3] : Fin 3 → Fin (S41 R nb st).rank))
    (h6 : Shape.Concatenates [S41 R nb st, S41 R nb st] (S4 R nb st) 2)
    (h7 : (S4 R nb st).ShapeCasts (Arr R)) (x : FVec Ideal (Arr R) .f32) :
    refStage R nb st h1 h2 h3 h4 h5 h6 h7 x = stage R st x := by
  funext j
  obtain ⟨p, q, rfl⟩ : ∃ (p : Fin R) (q : Fin 4096), j = ix2 p q := ⟨j 0, j 1, eq_ix2 j⟩
  have hq := q.isLt
  have hst : 0 < st := by
    rcases Nat.eq_zero_or_pos st with h0 | h0
    · rw [h0] at hnb; omega
    · exact h0
  have h2st : 0 < 2 * st := by omega
  have hblk : q.val / (2 * st) < nb := by
    rw [Nat.div_lt_iff_lt_mul h2st, hnb]; exact hq
  -- the column as (block, half, entry)
  obtain ⟨b, h, hh, o, rfl⟩ : ∃ (b : Fin nb) (h : Nat) (hh : h < 2) (o : Fin st), q = col hnb b h hh o :=
    ⟨⟨q.val / (2 * st), hblk⟩, q.val / st % 2, Nat.mod_lt _ (by norm_num), ⟨q.val % st, Nat.mod_lt _ hst⟩,
      Fin.ext (col_split st q.val).symm⟩
  rw [refStage_col hnb, stage_ix2]
  unfold stageAt
  rw [col_val, col_half b.val h o.val hh o.isLt]
  have hlt0 : (b.val * 2 + 0) * st + o.val < 4096 := by rw [← hnb]; exact col_lt _ _ _ b.isLt (by norm_num) o.isLt
  have hlt1 : (b.val * 2 + 1) * st + o.val < 4096 := by rw [← hnb]; exact col_lt _ _ _ b.isLt (by norm_num) o.isLt
  have hmul : (b.val * 2 + 1) * st = (b.val * 2 + 0) * st + st := by ring
  rcases Nat.lt_succ_iff_lt_or_eq.mp hh with hlt | rfl
  · obtain rfl : h = 0 := by omega
    rw [if_pos rfl, if_pos rfl]
    -- the partner of a first-half column is `st` columns further on
    have hw : wrap ((b.val * 2 + 0) * st + o.val) st = col hnb b 1 (by norm_num) o := by
      apply Fin.ext
      rw [wrap_val, col_val, Nat.mod_eq_of_lt (by omega)]
      omega
    rw [hw]
  · rw [if_neg (by norm_num), if_neg (by norm_num)]
    -- the partner of a second-half column is `st` columns back
    have hw : wrap ((b.val * 2 + 1) * st + o.val) (4096 - st) = col hnb b 0 (by norm_num) o := by
      apply Fin.ext
      rw [wrap_val, col_val]
      have : (b.val * 2 + 1) * st + o.val + (4096 - st) = (b.val * 2 + 0) * st + o.val + 4096 := by omega
      rw [this, Nat.add_mod_right, Nat.mod_eq_of_lt hlt0]
    rw [hw]

/-- The last stage of a chain: the stacked sum and difference of the two halves `a`, `b` of `X`, put back as rows,
    is the butterfly stage of `X`. -/
theorem stage_of_halves (X : FVec Ideal (Arr R) .f32) (a b : FVec Ideal (S3 R nb st) .f32)
    (h1 : (Arr R).ShapeCasts (S4 R nb st))
    (h2 : (S4 R nb st).Slices ![0, 0, 0, 0] (S41 R nb st)) (h3 : (S41 R nb st).ShapeCasts (S3 R nb st))
    (h4 : (S4 R nb st).Slices ![0, 0, 1, 0] (S41 R nb st))
    (h5 : (S3 R nb st).BroadcastsInDim (S41 R nb st) (![0, 1, 3] : Fin 3 → Fin (S41 R nb st).rank))
    (h6 : Shape.Concatenates [S41 R nb st, S41 R nb st] (S4 R nb st) 2)
    (h7 : (S4 R nb st).ShapeCasts (Arr R))
    (ha : a = half R nb st 0 h1 h2 h3 X) (hb : b = half R nb st 1 h1 h4 h3 X) :
    shapeCast (Arr R) (concatenate (S4 R nb st) 2
      [⟨S41 R nb st, broadcastInDim (S41 R nb st) ![0, 1, 3] h5 (addf a b)⟩,
       ⟨S41 R nb st, broadcastInDim (S41 R nb st) ![0, 1, 3] h5 (subf a b)⟩] h6) h7 = stage R st X := by
  subst ha hb
  exact refStage_eq hnb h1 h2 h3 h4 h5 h6 h7 X

/-- A middle stage of a chain: the same, recast for the next stage's blocks. -/
theorem next_of_halves (X : FVec Ideal (Arr R) .f32) (a b : FVec Ideal (S3 R nb st) .f32)
    (h1 : (Arr R).ShapeCasts (S4 R nb st))
    (h2 : (S4 R nb st).Slices ![0, 0, 0, 0] (S41 R nb st)) (h3 : (S41 R nb st).ShapeCasts (S3 R nb st))
    (h4 : (S4 R nb st).Slices ![0, 0, 1, 0] (S41 R nb st))
    (h5 : (S3 R nb st).BroadcastsInDim (S41 R nb st) (![0, 1, 3] : Fin 3 → Fin (S41 R nb st).rank))
    (h6 : Shape.Concatenates [S41 R nb st, S41 R nb st] (S4 R nb st) 2)
    (h7 : (S4 R nb st).ShapeCasts (Arr R))
    (ha : a = half R nb st 0 h1 h2 h3 X) (hb : b = half R nb st 1 h1 h4 h3 X)
    {T : Shape} (hT : (Arr R).ShapeCasts T) :
    shapeCast T (shapeCast (Arr R) (concatenate (S4 R nb st) 2
      [⟨S41 R nb st, broadcastInDim (S41 R nb st) ![0, 1, 3] h5 (addf a b)⟩,
       ⟨S41 R nb st, broadcastInDim (S41 R nb st) ![0, 1, 3] h5 (subf a b)⟩] h6) h7) hT
      = shapeCast T (stage R st X) hT :=
  congrArg (fun y => shapeCast T y hT) (stage_of_halves hnb X a b h1 h2 h3 h4 h5 h6 h7 ha hb)

end Reads

end Cert.RefStage

end
-- ==== Proof.RefStagesA.lean ====
/-
  The stages of the reference's line, read one at a time (strides 1, 2, 4, 8).

  A stage's eleven operations, run from any contents, leave in the stage's last buffer the butterfly stage (of the
  stage's stride) of what its first operation reads, and leave the argument's buffer alone: read through the stage by
  the operations' own results, the last buffer is the stacked sum and difference of the two halves of the array read,
  which Proof/RefStage.lean shows to be the butterfly stage.
-/
import proofs.«158363_j33071248180104_1_alg».proof.Proof.RefOps
import proofs.«158363_j33071248180104_1_alg».proof.Proof.RefStage

noncomputable section

namespace Cert.ReferenceIdeal.Whole

open Cert.ReferenceIdeal Cert.ReferenceIdeal.Gen Cert.ReferenceIdeal.Ops Idealize.ShloMosaic Idealize.ShloMosaic.TcCoe
open Idealize.SL.Sem Idealize.ShloMosaic.StableHlo Cert.Butterfly Cert.RefStage

variable (V : Valuation τ sig (Elt Ideal))

theorem stg0_out : after (stg0 (F := Ideal)) V (Proc.devRef .tc main_v10) = stage 8192 1 (V (Proc.devRef .tc main_arg0)) := by
  after_results
  exact stage_of_halves (nb := 2048) (st := 1) (by norm_num) _ _ _ _ _ _ _ _ _ _ rfl rfl

theorem stg0_arg : after (stg0 (F := Ideal)) V (Proc.devRef .tc main_arg0) = V (Proc.devRef .tc main_arg0) := by
  after_results

theorem stg1_out : after (stg1 (F := Ideal)) V (Proc.devRef .tc main_v21) = stage 8192 2 (V (Proc.devRef .tc main_v10)) := by
  after_results
  exact stage_of_halves (nb := 1024) (st := 2) (by norm_num) _ _ _ _ _ _ _ _ _ _ rfl rfl

theorem stg1_arg : after (stg1 (F := Ideal)) V (Proc.devRef .tc main_arg0) = V (Proc.devRef .tc main_arg0) := by
  after_results

theorem stg2_out : after (stg2 (F := Ideal)) V (Proc.devRef .tc main_v32) = stage 8192 4 (V (Proc.devRef .tc main_v21)) := by
  after_results
  exact stage_of_halves (nb := 512) (st := 4) (by norm_num) _ _ _ _ _ _ _ _ _ _ rfl rfl

theorem stg2_arg : after (stg2 (F := Ideal)) V (Proc.devRef .tc main_arg0) = V (Proc.devRef .tc main_arg0) := by
  after_results

theorem stg3_out : after (stg3 (F := Ideal)) V (Proc.devRef .tc main_v43) = stage 8192 8 (V (Proc.devRef .tc main_v32)) := by
  after_results
  exact stage_of_halves (nb := 256) (st := 8) (by norm_num) _ _ _ _ _ _ _ _ _ _ rfl rfl

theorem stg3_arg : after (stg3 (F := Ideal)) V (Proc.devRef .tc main_arg0) = V (Proc.devRef .tc main_arg0) := by
  after_results

end Cert.ReferenceIdeal.Whole

end
-- ==== Proof.RefStagesB.lean ====
/-
  The stages of the reference's line, read one at a time (strides 16, 32, 64, 128).

  A stage's eleven operations, run from any contents, leave in the stage's last buffer the butterfly stage (of the
  stage's stride) of what its first operation reads, and leave the argument's buffer alone: read through the stage by
  the operations' own results, the last buffer is the stacked sum and difference of the two halves of the array read,
  which Proof/RefStage.lean shows to be the butterfly stage.
-/
import proofs.«158363_j33071248180104_1_alg».proof.Proof.RefOps
import proofs.«158363_j33071248180104_1_alg».proof.Proof.RefStage

noncomputable section

namespace Cert.ReferenceIdeal.Whole

open Cert.ReferenceIdeal Cert.ReferenceIdeal.Gen Cert.ReferenceIdeal.Ops Idealize.ShloMosaic Idealize.ShloMosaic.TcCoe
open Idealize.SL.Sem Idealize.ShloMosaic.StableHlo Cert.Butterfly Cert.RefStage

variable (V : Valuation τ sig (Elt Ideal))

theorem stg4_out : after (stg4 (F := Ideal)) V (Proc.devRef .tc main_v54) = stage 8192 16 (V (Proc.devRef .tc main_v43)) := by
  after_results
  exact stage_of_halves (nb := 128) (st := 16) (by norm_num) _ _ _ _ _ _ _ _ _ _ rfl rfl

theorem stg4_arg : after (stg4 (F := Ideal)) V (Proc.devRef .tc main_arg0) = V (Proc.devRef .tc main_arg0) := by
  after_results

theorem stg5_out : after (stg5 (F := Ideal)) V (Proc.devRef .tc main_v65) = stage 8192 32 (V (Proc.devRef .tc main_v54)) := by
  after_results
  exact stage_of_halves (nb := 64) (st := 32) (by norm_num) _ _ _ _ _ _ _ _ _ _ rfl rfl

theorem stg5_arg : after (stg5 (F := Ideal)) V (Proc.devRef .tc main_arg0) = V (Proc.devRef .tc main_arg0) := by
  after_results

theorem stg6_out : after (stg6 (F := Ideal)) V (Proc.devRef .tc main_v76) = stage 8192 64 (V (Proc.devRef .tc main_v65)) := by
  after_results
  exact stage_of_halves (nb := 32) (st := 64) (by norm_num) _ _ _ _ _ _ _ _ _ _ rfl rfl

theorem stg6_arg : after (stg6 (F := Ideal)) V (Proc.devRef .tc main_arg0) = V (Proc.devRef .tc main_arg0) := by
  after_results

theorem stg7_out : after (stg7 (F := Ideal)) V (Proc.devRef .tc main_v87) = stage 8192 128 (V (Proc.devRef .tc main_v76)) := by
  after_results
  exact stage_of_halves (nb := 16) (st := 128) (by norm_num) _ _ _ _ _ _ _ _ _ _ rfl rfl

theorem stg7_arg : after (stg7 (F := Ideal)) V (Proc.devRef .tc main_arg0) = V (Proc.devRef .tc main_arg0) := by
  after_results

end Cert.ReferenceIdeal.Whole

end
-- ==== Proof.RefStagesC.lean ====
/-
  The stages of the reference's line, read one at a time (strides 256, 512, 1024, 2048).

  A stage's eleven operations, run from any contents, leave in the stage's last buffer the butterfly stage (of the
  stage's stride) of what its first operation reads, and leave the argument's buffer alone: read through the stage by
  the operations' own results, the last buffer is the stacked sum and difference of the two halves of the array read,
  which Proof/RefStage.lean shows to be the butterfly stage.
-/
import proofs.«158363_j33071248180104_1_alg».proof.Proof.RefOps
import proofs.«158363_j33071248180104_1_alg».proof.Proof.RefStage

noncomputable section

namespace Cert.ReferenceIdeal.Whole

open Cert.ReferenceIdeal Cert.ReferenceIdeal.Gen Cert.ReferenceIdeal.Ops Idealize.ShloMosaic Idealize.ShloMosaic.TcCoe
open Idealize.SL.Sem Idealize.ShloMosaic.StableHlo Cert.Butterfly Cert.RefStage

variable (V : Valuation τ sig (Elt Ideal))

theorem stg8_out : after (stg8 (F := Ideal)) V (Proc.devRef .tc main_v98) = stage 8192 256 (V (Proc.devRef .tc main_v87)) := by
  after_results
  exact stage_of_halves (nb := 8) (st := 256) (by norm_num) _ _ _ _ _ _ _ _ _ _ rfl rfl

theorem stg8_arg : after (stg8 (F := Ideal)) V (Proc.devRef .tc main_arg0) = V (Proc.devRef .tc main_arg0) := by
  after_results

theorem stg9_out : after (stg9 (F := Ideal)) V (Proc.devRef .tc main_v109) = stage 8192 512 (V (Proc.devRef .tc main_v98)) := by
  after_results
  exact stage_of_halves (nb := 4) (st := 512) (by norm_num) _ _ _ _ _ _ _ _ _ _ rfl rfl

theorem stg9_arg : after (stg9 (F := Ideal)) V (Proc.devRef .tc main_arg0) = V (Proc.devRef .tc main_arg0) := by
  after_results

theorem stg10_out : after (stg10 (F := Ideal)) V (Proc.devRef .tc main_v120) = stage 8192 1024 (V (Proc.devRef .tc main_v109)) := by
  after_results
  exact stage_of_halves (nb := 2) (st := 1024) (by norm_num) _ _ _ _ _ _ _ _ _ _ rfl rfl

theorem stg10_arg : after (stg10 (F := Ideal)) V (Proc.devRef .tc main_arg0) = V (Proc.devRef .tc main_arg0) := by
  after_results

theorem stg11_out : after (stg11 (F := Ideal)) V (Proc.devRef .tc main_v131) = stage 8192 2048 (V (Proc.devRef .tc main_v120)) := by
  after_results
  exact stage_of_halves (nb := 1) (st := 2048) (by norm_num) _ _ _ _ _ _ _ _ _ _ rfl rfl

theorem stg11_arg : after (stg11 (F := Ideal)) V (Proc.devRef .tc main_arg0) = V (Proc.devRef .tc main_arg0) := by
  after_results

end Cert.ReferenceIdeal.Whole

end
-- ==== Proof.RefValue.lean ====
/-
  What the reference leaves in its result array: the butterfly transform of the argument.

  The line is its twelve stages run one after the other; each stage turns what it finds in the previous stage's last
  buffer into its butterfly stage (Proof/RefStagesA–C.lean) and none touches the argument. So the last buffer ends at
  the twelve stages of the argument, strides 1, 2, …, 2048 in that order: the transform.
-/
import proofs.«158363_j33071248180104_1_alg».proof.Proof.RefRun
import proofs.«158363_j33071248180104_1_alg».proof.Proof.RefStagesA
import proofs.«158363_j33071248180104_1_alg».proof.Proof.RefStagesB
import proofs.«158363_j33071248180104_1_alg».proof.Proof.RefStagesC

noncomputable section

namespace Cert.ReferenceIdeal.Whole

open Cert.ReferenceIdeal Cert.ReferenceIdeal.Gen Cert.ReferenceIdeal.Ops Idealize.ShloMosaic Idealize.ShloMosaic.TcCoe
open Idealize.SL.Sem Idealize.ShloMosaic.StableHlo Cert.Butterfly Cert.RefStage

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

variable (V : Valuation τ sig (Elt Ideal))

/-- The line leaves the transform of the argument in its last buffer. -/
theorem result_eq : after (ops (F := Ideal)) V (Proc.devRef .tc main_v131) = fwht 8192 (V (Proc.devRef .tc main_arg0)) := by
  rw [ops_split]
  simp only [after_append]
  rw [stg11_out, stg10_out, stg9_out, stg8_out, stg7_out, stg6_out, stg5_out, stg4_out, stg3_out, stg2_out, stg1_out,
    stg0_out]
  rfl

/-- The line leaves the argument as it was. -/
theorem arg_kept : after (ops (F := Ideal)) V (Proc.devRef .tc main_arg0) = V (Proc.devRef .tc main_arg0) := by
  rw [ops_split]
  simp only [after_append]
  rw [stg11_arg, stg10_arg, stg9_arg, stg8_arg, stg7_arg, stg6_arg, stg5_arg, stg4_arg, stg3_arg, stg2_arg, stg1_arg,
    stg0_arg]

/-- Every weakly fair execution of the reference ends with its result at the transform of its argument, the argument
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = fwht 8192 (m ((c.tc : Thread nD τ).loc main_arg0))
      ∧ r.2.mem ((c.tc : Thread nD τ).loc main_arg0) = m ((c.tc : Thread nD τ).loc main_arg0) :=
  (θ_run defs _ _).mono (fun _ h c => ⟨(h c main_v131).trans (result_eq (launchContents m c)),
      (h c main_arg0).trans (arg_kept (launchContents m c))⟩)
    (run_all (F := Ideal) m ρ)

end Cert.ReferenceIdeal.Whole

end
-- ==== Proof.lean ====
/-
  The certificate of a fused Walsh–Hadamard butterfly kernel against its stage-by-stage reference.

  Both programs compute, on every row of 4096 entries, the radix-2 butterfly network of twelve stages (strides 1, 2, …,
  2048): at a stage of stride `s`, columns `i` and `i + s` (bit `s` of `i` clear) become their sum and their difference
  (Proof/Butterfly.lean). The kernel keeps a tile of 128 whole rows and forms each stage from two rotations of the tile
  along its rows and a selection on the lane number's bit (Proof/KernelStage.lean, Proof/KernelValue.lean); the reference
  views each row as blocks of two halves and stacks the halves' sum and difference (Proof/RefStage.lean,
  Proof/RefStagesA–C.lean, Proof/RefValue.lean). Entry by entry the two add or subtract the same two entries in the same
  order, so the results are equal on the extended reals with no use of finiteness: the precondition is not opened.
  The ideal pass rewrote nothing, so the kernel's idealization is its own text read at the ideal instance.
-/
import proofs.«158363_j33071248180104_1_alg».proof.Defs
import proofs.«158363_j33071248180104_1_alg».proof.Proof.Gen.Kernel
import proofs.«158363_j33071248180104_1_alg».proof.Proof.Gen.Kernel.Skeleton
import proofs.«158363_j33071248180104_1_alg».proof.Proof.Gen.Kernel.Launch
import proofs.«158363_j33071248180104_1_alg».proof.Proof.Gen.Kernel.Points
import proofs.«158363_j33071248180104_1_alg».proof.Proof.Gen.Kernel.Frame
import proofs.«158363_j33071248180104_1_alg».proof.Proof.Gen.KernelIdeal
import proofs.«158363_j33071248180104_1_alg».proof.Proof.Gen.KernelIdeal.Skeleton
import proofs.«158363_j33071248180104_1_alg».proof.Proof.Gen.KernelIdeal.Launch
import proofs.«158363_j33071248180104_1_alg».proof.Proof.Gen.KernelIdeal.Points
import proofs.«158363_j33071248180104_1_alg».proof.Proof.Gen.KernelIdeal.Frame
import proofs.«158363_j33071248180104_1_alg».proof.Proof.Gen.KernelIdeal.Value
import proofs.«158363_j33071248180104_1_alg».proof.Proof.Gen.ReferenceIdeal
import proofs.«158363_j33071248180104_1_alg».proof.Proof.Gen.Pre_finite_inputs
import proofs.«158363_j33071248180104_1_alg».proof.Proof.KernelValue
import proofs.«158363_j33071248180104_1_alg».proof.Proof.RefValue
import Idealize.ShloMosaic.Adequacy
import Idealize.ShloMosaic.Init

noncomputable section

namespace Cert.Proof

open Idealize.ShloMosaic Idealize.SL.Sem

/-- The word-level kernel runs and leaves its argument alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument alone: its run with the result dropped. -/
theorem frame_ri : Cert.frame_ReferenceIdeal := fun m ρ _ =>
  (θ_run Cert.ReferenceIdeal.defs _ _).mono (fun _ h c => (h c).2) (Cert.ReferenceIdeal.Whole.run m ρ)

/-- The ideal pass rewrote nothing. -/
theorem preserves : Cert.preserves_Kernel_KernelIdeal := trivial

/-- Both idealized programs end with the transform of the (agreeing) argument in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
